-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x4x1024 .f32) (main_arg1 : FVec F S3072x1024 .f32) (main_arg2 : FVec F S3072 .f32) (main_arg3 : FVec F S1024x1024 .f32) (main_arg4 : FVec F S1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S2048x4x16x64 : Shape := ⟨4, ![2048, 4, 16, 64]⟩
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S4x16x2048x2048 : Shape := ⟨4, ![4, 16, 2048, 2048]⟩
abbrev S512x1024 : Shape := ⟨2, ![512, 1024]⟩

abbrev nBuf : Space → Nat
  | .hbm => 32
  | .vmem => 26
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S3072x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S2048x4x1024, .bf16⟩
  | .hbm, ⟨12, _⟩ => ⟨S2048x4x1024, .bf16⟩
  | .hbm, ⟨13, _⟩ => ⟨S2048x4x1024, .bf16⟩
  | .hbm, ⟨14, _⟩ => ⟨S2048x4x16x64, .bf16⟩
  | .hbm, ⟨15, _⟩ => ⟨S4x16x2048x64, .bf16⟩
  | .hbm, ⟨16, _⟩ => ⟨S64x2048x64, .bf16⟩
  | .hbm, ⟨17, _⟩ => ⟨S2048x4x16x64, .bf16⟩
  | .hbm, ⟨18, _⟩ => ⟨S4x16x2048x64, .bf16⟩
  | .hbm, ⟨19, _⟩ => ⟨S64x2048x64, .bf16⟩
  | .hbm, ⟨20, _⟩ => ⟨S2048x4x16x64, .bf16⟩
  | .hbm, ⟨21, _⟩ => ⟨S4x16x2048x64, .bf16⟩
  | .hbm, ⟨22, _⟩ => ⟨S64x2048x64, .bf16⟩
  | .hbm, ⟨23, _⟩ => ⟨S64x2048x64, .bf16⟩
  | .hbm, ⟨24, _⟩ => ⟨S64x2048x2048, .f32⟩
  | .hbm, ⟨25, _⟩ => ⟨S4x16x2048x2048, .f32⟩
  | .hbm, ⟨26, _⟩ => ⟨S4x16x2048x64, .bf16⟩
  | .hbm, ⟨27, _⟩ => ⟨S2048x4x16x64, .bf16⟩
  | .hbm, ⟨28, _⟩ => ⟨S8192x1024, .bf16⟩
  | .hbm, ⟨29, _⟩ => ⟨S1024x1024, .bf16⟩
  | .hbm, ⟨30, _⟩ => ⟨S8192x1024, .f32⟩
  | .hbm, ⟨31, _⟩ => ⟨S2048x4x1024, .f32⟩
  | .local _ .vmem, ⟨0, _⟩ => ⟨S1024x1024, .bf16⟩
  | .local _ .vmem, ⟨1, _⟩ => ⟨S1024x1024, .bf16⟩
  | .local _ .vmem, ⟨2, _⟩ => ⟨S3072x1024, .bf16⟩
  | .local _ .vmem, ⟨3, _⟩ => ⟨S3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024x2048, .f32⟩
  | .local _ .vmem, ⟨19, _⟩ => ⟨S1x1024x2048, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024, .f32⟩
  | .local _ .vmem, ⟨24, _⟩ => ⟨S512x1024, .f32⟩
  | .local _ .vmem, ⟨25, _⟩ => ⟨S512x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048x4x1024_S8192x1024 : S2048x4x1024.ShapeCasts S8192x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S1024x1024_0_0 : ∀ a, (![0, 0] : Fin 2 → Nat) a + S1024x1024.size a ≤ S3072x1024.size a
  inb_S3072_S1024_0 : ∀ a, (![0] : Fin 1 → Nat) a + S1024.size a ≤ S3072.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S3072x1024_S1024x1024_1024_0 : ∀ a, (![1024, 0] : Fin 2 → Nat) a + S1024x1024.size a ≤ S3072x1024.size a
  inb_S3072_S1024_1024 : ∀ a, (![1024] : Fin 1 → Nat) a + S1024.size a ≤ S3072.size a
  inb_S3072x1024_S1024x1024_2048_0 : ∀ a, (![2048, 0] : Fin 2 → Nat) a + S1024x1024.size a ≤ S3072x1024.size a
  inb_S3072_S1024_2048 : ∀ a, (![2048] : Fin 1 → Nat) a + S1024.size a ≤ S3072.size a
  shapeCasts_S8192x1024_S2048x4x1024 : S8192x1024.ShapeCasts S2048x4x1024
  shapeCasts_S2048x4x1024_S2048x4x16x64 : S2048x4x1024.ShapeCasts S2048x4x16x64
  transposes_S2048x4x16x64_S4x16x2048x64_1_2_0_3 : S2048x4x16x64.Transposes [1, 2, 0, 3] S4x16x2048x64
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x2048_S4x16x2048x2048 : S64x2048x2048.ShapeCasts S4x16x2048x2048
  shapeCasts_S64x2048x64_S4x16x2048x64 : S64x2048x64.ShapeCasts S4x16x2048x64
  transposes_S4x16x2048x64_S2048x4x16x64_2_0_1_3 : S4x16x2048x64.Transposes [2, 0, 1, 3] S2048x4x16x64
  shapeCasts_S2048x4x16x64_S8192x1024 : S2048x4x16x64.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  broadcasts_S1x1024_S512x1024 : S1x1024.Broadcasts S512x1024
  dot_S1024x1024_S1024x1024_S1024x1024_1_1_0_0_n_n_wf : DotDims.WF S1024x1024 S1024x1024 S1024x1024 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x2048.size a ≤ S64x2048x2048.size a
  hwx1_4 : ∀ i : grid1.Coords, EltTy.bits .f32 = 32 ∨ (Rect.block (s := S64x2048x2048) S1x1024x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1x1024x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x4x1024 : Shape := ⟨3, ![2048, 4, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x4x3072 : Shape := ⟨3, ![2048, 4, 3072]⟩
abbrev S1x1x3072 : Shape := ⟨3, ![1, 1, 3072]⟩
abbrev S2048x4x16x64 : Shape := ⟨4, ![2048, 4, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x4x3072, .f32⟩
  | .hbm, ⟨6, _⟩ => ⟨S1x1x3072, .f32⟩
  | .hbm, ⟨7, _⟩ => ⟨S2048x4x3072, .f32⟩
  | .hbm, ⟨8, _⟩ => ⟨S2048x4x3072, .f32⟩
  | .hbm, ⟨9, _⟩ => ⟨S2048x4x1024, .f32⟩
  | .hbm, ⟨10, _⟩ => ⟨S2048x4x1024, .f32⟩
  | .hbm, ⟨11, _⟩ => ⟨S2048x4x1024, .f32⟩
  | .hbm, ⟨12, _⟩ => ⟨S2048x4x16x64, .f32⟩
  | .hbm, ⟨13, _⟩ => ⟨S4x16x2048x64, .f32⟩
  | .hbm, ⟨14, _⟩ => ⟨S2048x4x16x64, .f32⟩
  | .hbm, ⟨15, _⟩ => ⟨S4x16x2048x64, .f32⟩
  | .hbm, ⟨16, _⟩ => ⟨S2048x4x16x64, .f32⟩
  | .hbm, ⟨17, _⟩ => ⟨S4x16x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S_, .f32⟩
  | .hbm, ⟨28, _⟩ => ⟨S4x16x2048, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x64, .f32⟩
  | .hbm, ⟨40, _⟩ => ⟨S2048x4x16x64, .f32⟩
  | .hbm, ⟨41, _⟩ => ⟨S2048x4x1024, .f32⟩
  | .hbm, ⟨42, _⟩ => ⟨S2048x4x1024, .f32⟩
  | .hbm, ⟨43, _⟩ => ⟨S1x1x1024, .f32⟩
  | .hbm, ⟨44, _⟩ => ⟨S2048x4x1024, .f32⟩
  | .hbm, ⟨45, _⟩ => ⟨S2048x4x1024, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2048x4x3072_0_1_2 : S1x1x3072.BroadcastsInDim S2048x4x3072 (![0, 1, 2] : Fin 3 → Fin S2048x4x3072.rank)
  slices_S2048x4x3072_S2048x4x1024_0_0_0 : S2048x4x3072.Slices ![0, 0, 0] S2048x4x1024
  slices_S2048x4x3072_S2048x4x1024_0_0_1024 : S2048x4x3072.Slices ![0, 0, 1024] S2048x4x1024
  slices_S2048x4x3072_S2048x4x1024_0_0_2048 : S2048x4x3072.Slices ![0, 0, 2048] S2048x4x1024
  shapeCasts_S2048x4x1024_S2048x4x16x64 : S2048x4x1024.ShapeCasts S2048x4x16x64
  transposes_S2048x4x16x64_S4x16x2048x64_1_2_0_3 : S2048x4x16x64.Transposes [1, 2, 0, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S2048x4x16x64_2_0_1_3 : S4x16x2048x64.Transposes [2, 0, 1, 3] S2048x4x16x64
  shapeCasts_S2048x4x16x64_S2048x4x1024 : S2048x4x16x64.ShapeCasts S2048x4x1024
  bcast_S1024_S1x1x1024_2 : S1024.BroadcastsInDim S1x1x1024 (![2] : Fin 1 → Fin S1x1x1024.rank)
  bcast_S1x1x1024_S2048x4x1024_0_1_2 : S1x1x1024.BroadcastsInDim S2048x4x1024 (![0, 1, 2] : Fin 3 → Fin S2048x4x1024.rank)
  dot_S2048x4x1024_S3072x1024_S2048x4x3072_2_1_01_0_n_n_wf : DotDims.WF S2048x4x1024 S3072x1024 S2048x4x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S2048x4x1024_S1024x1024_S2048x4x1024_2_1_01_0_n_n_wf : DotDims.WF S2048x4x1024 S1024x1024 S2048x4x1024 [2] [1] [0, 1] [0] [] []

variable [Facts₀]

def dot_S2048x4x1024_S3072x1024_S2048x4x3072_2_1_01_0_n_n : DotDims S2048x4x1024 S3072x1024 S2048x4x3072 where
  lhsContracting := [2]
  rhsContracting := [1]
  lhsNonContracting := [0, 1]
  rhsNonContracting := [0]
  lhsBatch := []
  rhsBatch := []
  wf := dot_S2048x4x1024_S3072x1024_S2048x4x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S2048x4x1024_S1024x1024_S2048x4x1024_2_1_01_0_n_n : DotDims S2048x4x1024 S1024x1024 S2048x4x1024 where
  lhsContracting := [2]
  rhsContracting := [1]
  lhsNonContracting := [0, 1]
  rhsNonContracting := [0]
  lhsBatch := []
  rhsBatch := []
  wf := dot_S2048x4x1024_S1024x1024_S2048x4x1024_2_1_01_0_n_n_wf

class Facts : Prop extends Facts₀ where

variable [Facts]
-- ==== Proof.KRun.lean ====
/-
  The idealized kernel's run, with its two result buffers named.
  @main is seven segments: four stretches of host operations around three kernel regions. The buffer contents
  at each boundary are a fold from the launch memory (`Gen.W0` … `Gen.W7`); after the last stretch every unscoped
  buffer holds `Gen.W7` of itself. The frame claim reads the five argument buffers out of that state; here the same
  final state is read at the two result buffers as well: `main_v23` (the projected output, [2048, 4, 1024]) and
  `main_v17` (the attention weights, [4, 16, 2048, 2048]).
-/
import proofs.«118766_j79869211836976_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; in the final state the two results hold the
    last boundary's contents `W7` at their buffers, and the five arguments are as launched. -/
theorem run_results : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_v17) = W7 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       h c _ (mem_uc main_v17 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.KRun

end
-- ==== Proof.MatmulEntry.lean ====
/-
  The four matrix products of the kernel bodies, read at one entry of the result over the extended reals.
  Each accumulates into a zero block, so entry (p, q) is the plain sum over the contraction coordinate k of
  left[p, k] · right[q, k] when both operands are contracted on their second axis (the three projections and
  the scores q·kᵀ), and of left[p, k] · right[k, q] when the right operand is contracted on its first axis
  (weights times values). No rounding and no chunk order is left at the exact instance.
-/
import proofs.«118766_j79869211836976_2_alg».proof.Proof.Gen.KernelIdeal
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

private theorem projDot_lhs_row (i : S1024x1024.Idx) (κ : dot_S1024x1024_S1024x1024_S1024x1024_1_1_0_0_n_n.contr.Idx) :
    (dot_S1024x1024_S1024x1024_S1024x1024_1_1_0_0_n_n.lhsIdx i κ 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
private theorem projDot_lhs_contr (i : S1024x1024.Idx) (κ : dot_S1024x1024_S1024x1024_S1024x1024_1_1_0_0_n_n.contr.Idx) :
    (dot_S1024x1024_S1024x1024_S1024x1024_1_1_0_0_n_n.lhsIdx i κ 1).val = (κ ⟨0, by decide⟩).val :=
  dot_S1024x1024_S1024x1024_S1024x1024_1_1_0_0_n_n.lhsIdx_val_of_single rfl i κ
private theorem projDot_rhs_row (i : S1024x1024.Idx) (κ : dot_S1024x1024_S1024x1024_S1024x1024_1_1_0_0_n_n.contr.Idx) :
    (dot_S1024x1024_S1024x1024_S1024x1024_1_1_0_0_n_n.rhsIdx i κ 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
private theorem projDot_rhs_contr (i : S1024x1024.Idx) (κ : dot_S1024x1024_S1024x1024_S1024x1024_1_1_0_0_n_n.contr.Idx) :
    (dot_S1024x1024_S1024x1024_S1024x1024_1_1_0_0_n_n.rhsIdx i κ 1).val = (κ ⟨0, by decide⟩).val :=
  dot_S1024x1024_S1024x1024_S1024x1024_1_1_0_0_n_n.rhsIdx_val_of_single rfl i κ

/-- A 1024-row tile of the input times a 1024-row slab of the input projection's weights, both contracted over the 1024 embedding coordinates: entry (p, q) is ∑ₖ a[p, k] · w[q, k]. -/
theorem projDot_apply (l : FVec Ideal S1024x1024 .bf16) (r : FVec Ideal S1024x1024 .bf16) (p : Fin 1024) (q : Fin 1024) :
    matmul dot_S1024x1024_S1024x1024_S1024x1024_1_1_0_0_n_n none l r (constant S1024x1024 .f32 0x00000000#32) (ix2 p q)
      = ∑ k : Fin 1024, l (ix2 p k) * r (ix2 q k) := by
  show FloatOps.matmul dot_S1024x1024_S1024x1024_S1024x1024_1_1_0_0_n_n none l r (constant S1024x1024 .f32 0x00000000#32) (ix2 p q) = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact projDot_lhs_row _ _
    | ⟨1, _⟩ => exact (projDot_lhs_contr _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact projDot_rhs_row _ _
    | ⟨1, _⟩ => exact (projDot_rhs_contr _ _).trans hk)
  rw [el, er]

private theorem scoreDot_lhs_row (i : S1024x2048.Idx) (κ : dot_S1024x64_S2048x64_S1024x2048_1_1_0_0_n_n.contr.Idx) :
    (dot_S1024x64_S2048x64_S1024x2048_1_1_0_0_n_n.lhsIdx i κ 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
private theorem scoreDot_lhs_contr (i : S1024x2048.Idx) (κ : dot_S1024x64_S2048x64_S1024x2048_1_1_0_0_n_n.contr.Idx) :
    (dot_S1024x64_S2048x64_S1024x2048_1_1_0_0_n_n.lhsIdx i κ 1).val = (κ ⟨0, by decide⟩).val :=
  dot_S1024x64_S2048x64_S1024x2048_1_1_0_0_n_n.lhsIdx_val_of_single rfl i κ
private theorem scoreDot_rhs_row (i : S1024x2048.Idx) (κ : dot_S1024x64_S2048x64_S1024x2048_1_1_0_0_n_n.contr.Idx) :
    (dot_S1024x64_S2048x64_S1024x2048_1_1_0_0_n_n.rhsIdx i κ 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
private theorem scoreDot_rhs_contr (i : S1024x2048.Idx) (κ : dot_S1024x64_S2048x64_S1024x2048_1_1_0_0_n_n.contr.Idx) :
    (dot_S1024x64_S2048x64_S1024x2048_1_1_0_0_n_n.rhsIdx i κ 1).val = (κ ⟨0, by decide⟩).val :=
  dot_S1024x64_S2048x64_S1024x2048_1_1_0_0_n_n.rhsIdx_val_of_single rfl i κ

/-- The raw scores of one head: a tile of 1024 queries against all 2048 keys, contracted over the 64 head coordinates: entry (p, q) is ∑ₖ query[p, k] · key[q, k]. -/
theorem scoreDot_apply (l : FVec Ideal S1024x64 .bf16) (r : FVec Ideal S2048x64 .bf16) (p : Fin 1024) (q : Fin 2048) :
    matmul dot_S1024x64_S2048x64_S1024x2048_1_1_0_0_n_n none l r (constant S1024x2048 .f32 0x00000000#32) (ix2 p q)
      = ∑ k : Fin 64, l (ix2 p k) * r (ix2 q k) := by
  show FloatOps.matmul dot_S1024x64_S2048x64_S1024x2048_1_1_0_0_n_n none l r (constant S1024x2048 .f32 0x00000000#32) (ix2 p q) = _
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 p q) ((ValueIdx.contrEquiv1 dot_S1024x64_S2048x64_S1024x2048_1_1_0_0_n_n 64 rfl rfl).symm k) = ix2 p k := funext fun a => Fin.ext (by
    match a with
    | ⟨0, _⟩ => exact scoreDot_lhs_row _ _
    | ⟨1, _⟩ => exact (scoreDot_lhs_contr _ _).trans hk)
  have er : dot_S1024x64_S2048x64_S1024x2048_1_1_0_0_n_n.rhsIdx (ix2 p q) ((ValueIdx.contrEquiv1 dot_S1024x64_S2048x64_S1024x2048_1_1_0_0_n_n 64 rfl rfl).symm k) = ix2 q k := funext fun a => Fin.ext (by
    match a with
    | ⟨0, _⟩ => exact scoreDot_rhs_row _ _
    | ⟨1, _⟩ => exact (scoreDot_rhs_contr _ _).trans hk)
  rw [el, er]

private theorem mixDot_lhs_row (i : S1024x64.Idx) (κ : dot_S1024x2048_S2048x64_S1024x64_1_0_0_1_n_n.contr.Idx) :
    (dot_S1024x2048_S2048x64_S1024x64_1_0_0_1_n_n.lhsIdx i κ 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
private theorem mixDot_lhs_contr (i : S1024x64.Idx) (κ : dot_S1024x2048_S2048x64_S1024x64_1_0_0_1_n_n.contr.Idx) :
    (dot_S1024x2048_S2048x64_S1024x64_1_0_0_1_n_n.lhsIdx i κ 1).val = (κ ⟨0, by decide⟩).val :=
  dot_S1024x2048_S2048x64_S1024x64_1_0_0_1_n_n.lhsIdx_val_of_single rfl i κ
private theorem mixDot_rhs_row (i : S1024x64.Idx) (κ : dot_S1024x2048_S2048x64_S1024x64_1_0_0_1_n_n.contr.Idx) :
    (dot_S1024x2048_S2048x64_S1024x64_1_0_0_1_n_n.rhsIdx i κ 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl
private theorem mixDot_rhs_contr (i : S1024x64.Idx) (κ : dot_S1024x2048_S2048x64_S1024x64_1_0_0_1_n_n.contr.Idx) :
    (dot_S1024x2048_S2048x64_S1024x64_1_0_0_1_n_n.rhsIdx i κ 0).val = (κ ⟨0, by decide⟩).val :=
  dot_S1024x2048_S2048x64_S1024x64_1_0_0_1_n_n.rhsIdx_val_of_single rfl i κ

/-- The weights times the values of one head, contracted over the 2048 key positions: entry (p, q) is ∑ₖ weight[p, k] · value[k, q]. -/
theorem mixDot_apply (l : FVec Ideal S1024x2048 .bf16) (r : FVec Ideal S2048x64 .bf16) (p : Fin 1024) (q : Fin 64) :
    matmul dot_S1024x2048_S2048x64_S1024x64_1_0_0_1_n_n none l r (constant S1024x64 .f32 0x00000000#32) (ix2 p q)
      = ∑ k : Fin 2048, l (ix2 p k) * r (ix2 k q) := by
  show FloatOps.matmul dot_S1024x2048_S2048x64_S1024x64_1_0_0_1_n_n none l r (constant S1024x64 .f32 0x00000000#32) (ix2 p q) = _
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q) ((ValueIdx.contrEquiv1 dot_S1024x2048_S2048x64_S1024x64_1_0_0_1_n_n 2048 rfl rfl).symm k) = ix2 p k := funext fun a => Fin.ext (by
    match a with
    | ⟨0, _⟩ => exact mixDot_lhs_row _ _
    | ⟨1, _⟩ => exact (mixDot_lhs_contr _ _).trans hk)
  have er : dot_S1024x2048_S2048x64_S1024x64_1_0_0_1_n_n.rhsIdx (ix2 p q) ((ValueIdx.contrEquiv1 dot_S1024x2048_S2048x64_S1024x64_1_0_0_1_n_n 2048 rfl rfl).symm k) = ix2 k q := funext fun a => Fin.ext (by
    match a with
    | ⟨0, _⟩ => exact (mixDot_rhs_contr _ _).trans hk
    | ⟨1, _⟩ => exact mixDot_rhs_row _ _)
  rw [el, er]

private theorem outDot_lhs_row (i : S512x1024.Idx) (κ : dot_S512x1024_S1024x1024_S512x1024_1_1_0_0_n_n.contr.Idx) :
    (dot_S512x1024_S1024x1024_S512x1024_1_1_0_0_n_n.lhsIdx i κ 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
private theorem outDot_lhs_contr (i : S512x1024.Idx) (κ : dot_S512x1024_S1024x1024_S512x1024_1_1_0_0_n_n.contr.Idx) :
    (dot_S512x1024_S1024x1024_S512x1024_1_1_0_0_n_n.lhsIdx i κ 1).val = (κ ⟨0, by decide⟩).val :=
  dot_S512x1024_S1024x1024_S512x1024_1_1_0_0_n_n.lhsIdx_val_of_single rfl i κ
private theorem outDot_rhs_row (i : S512x1024.Idx) (κ : dot_S512x1024_S1024x1024_S512x1024_1_1_0_0_n_n.contr.Idx) :
    (dot_S512x1024_S1024x1024_S512x1024_1_1_0_0_n_n.rhsIdx i κ 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
private theorem outDot_rhs_contr (i : S512x1024.Idx) (κ : dot_S512x1024_S1024x1024_S512x1024_1_1_0_0_n_n.contr.Idx) :
    (dot_S512x1024_S1024x1024_S512x1024_1_1_0_0_n_n.rhsIdx i κ 1).val = (κ ⟨0, by decide⟩).val :=
  dot_S512x1024_S1024x1024_S512x1024_1_1_0_0_n_n.rhsIdx_val_of_single rfl i κ

/-- A 512-row tile of the mixed heads times the output projection's weights, contracted over the 1024 embedding coordinates: entry (p, q) is ∑ₖ a[p, k] · w[q, k]. -/
theorem outDot_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  show FloatOps.matmul dot_S512x1024_S1024x1024_S512x1024_1_1_0_0_n_n none l r (constant S512x1024 .f32 0x00000000#32) (ix2 p q) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact outDot_lhs_row _ _
    | ⟨1, _⟩ => exact (outDot_lhs_contr _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact outDot_rhs_row _ _
    | ⟨1, _⟩ => exact (outDot_rhs_contr _ _).trans hk)
  rw [el, er]

end Cert.KernelIdeal.Entry

end
-- ==== Proof.LibSoftmaxRows.lean ====
/-
  Softmax of the rows of a two-axis block, over the extended reals — a general module: it depends on the library
  only.
  First the row itself: a row's weights are exp(s q − M) / ∑ₜ exp(s t − M), with M the row's maximum taken as a fold
  of `max` from −∞ (`rowMax`, `softmaxRow`), the float pattern of −∞ (`negInf`, `max_negInf`), and the scale
  1 / sqrt 64 against the literal 0.125 (`scale_eq`: the square root of the real 64 is 8).
  Then a kernel body's row-wise operations read at one entry: a vector turned into a column and spread over the
  columns of a block (`column_apply`, with the two column forms of a cast and a broadcast), the sum of a row and the
  maximum of a row as a `Fin`-indexed sum and fold (`rowSum_apply`, `rowMax_apply`), and the whole softmax of a block
  of scores as a body writes it — subtract each row's maximum, exponentiate, divide by each row's sum — read at
  (p, q) as `softmaxRow` of row p at q (`softmax_block_apply`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Softmax

open Idealize.ShloMosaic

/-- The float pattern of −∞, the value both maxima start from. -/
abbrev negInf : EReal := Ideal.ofBits .f32 0xFF800000#32

/-- The pattern of −∞ denotes the bottom of the extended reals. -/
theorem negInf_eq_bot : negInf = ⊥ := by
  simp [negInf, Ideal.ofBits, Ideal.ieee]

/-- Taking the maximum with −∞ changes nothing. -/
theorem max_negInf (x : EReal) : max negInf x = x := by
  rw [negInf_eq_bot]; exact max_eq_right bot_le

/-- `1.0` denotes the real 1. -/
theorem ofBits_one : Ideal.ofBits .f32 0x3F800000#32 = ((1 : ℝ) : EReal) := by
  simp [Ideal.ofBits, Ideal.ieee, -EReal.coe_mul]; norm_num

/-- `64.0` denotes the real 64. -/
theorem ofBits_sixtyFour : Ideal.ofBits .f32 0x42800000#32 = ((64 : ℝ) : EReal) := by
  simp [Ideal.ofBits, Ideal.ieee, -EReal.coe_mul]; norm_num

/-- `0.125` denotes the real 1/8. -/
theorem ofBits_eighth : Ideal.ofBits .f32 0x3E000000#32 = (((1 : ℝ) / 8 : ℝ) : EReal) := by
  simp [Ideal.ofBits, Ideal.ieee, -EReal.coe_mul]; norm_num

/-- The reference's scale 1 / sqrt(64) is the kernel's literal 0.125: sqrt 64 = 8 on the reals. -/
theorem scale_eq : Ideal.div (Ideal.ofBits .f32 0x3F800000#32) (Ideal.sqrt (Ideal.ofBits .f32 0x42800000#32))
    = Ideal.ofBits .f32 0x3E000000#32 := by
  have h8 : Real.sqrt 64 = 8 := by
    rw [show (64 : ℝ) = 8 * 8 by norm_num]; exact Real.sqrt_mul_self (by norm_num)
  rw [ofBits_sixtyFour, ofBits_one, ofBits_eighth, Ideal.sqrt_coe, if_neg (by norm_num), h8,
    Ideal.div_coe (by norm_num : (8 : ℝ) ≠ 0), ← EReal.coe_mul]
  norm_num

/-- The maximum of a row: the fold of `max` from −∞ over its entries. -/
def rowMax {n : Nat} (s : Fin n → EReal) : EReal := (Finset.univ : Finset (Fin n)).fold max negInf s

/-- Entry `q` of the softmax of the row `s`: the exponential of the entry less the row's maximum, divided by the sum of
    those exponentials over the row. -/
def softmaxRow {n : Nat} (s : Fin n → EReal) (q : Fin n) : EReal :=
  Ideal.div (Ideal.exp (s q - rowMax s)) (∑ t : Fin n, Ideal.exp (s t - rowMax s))

end Cert.Softmax

namespace Cert.RowOps

open Idealize.ShloMosaic Idealize.ShloMosaic.ValueIdx Cert.Softmax

variable {α : Type}

/-- A vector of `a` entries cast to one column reads, at (i, 0), entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One column spread over `b` columns reads, at (p, c), the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector turned into a column and spread over the columns: entry (p, c) is the vector's entry `p`. -/
theorem column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- Row `p` with the column coordinate `k` put back is the entry (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The sum over the columns of a block, at row `p`, is the sum of that row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The maximum over the columns of a block from −∞, at row `p`, is that row's maximum. -/
theorem rowMax_apply {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) :=
  (Ideal.multiReduction_maximumf_single src 0xFF800000#32 h hφ hacc (ix1 p)).trans
    (congrArg (fun f => (Finset.univ : Finset (Fin b)).fold max negInf f)
      (funext fun k => congrArg src (lift_row h p k)))

/-- The body's softmax of a block of scores: subtract each row's maximum, exponentiate, divide by each row's
    sum. Entry (p, q) is the softmax of row `p` at `q`. -/
theorem softmax_block_apply {a b : ℕ} (S : FVec Ideal ⟨2, ![a, b]⟩ .f32)
    (h1 : (⟨1, ![a]⟩ : Shape).ShapeCasts ⟨2, ![a, 1]⟩) (h2 : (⟨2, ![a, 1]⟩ : Shape).Broadcasts ⟨2, ![a, b]⟩)
    (hr : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ) (p : Fin a) (q : Fin b) :
    divf
        (exp (subf S (broadcastTo ⟨2, ![a, b]⟩ (shapeCast ⟨2, ![a, 1]⟩
          (multiReduction .maximumf [1] ⟨1, ![a]⟩ S 0xFF800000#32 hr hφ hmax) h1) h2)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S 0xFF800000#32 hr hφ hmax) h1) h2)))
            0x00000000#32 hr hφ hadd) h1) h2)
        (ix2 p q)
      = softmaxRow (fun t : Fin b => S (ix2 p t)) q := by
  have hM : ∀ t : Fin b, broadcastTo ⟨2, ![a, b]⟩ (shapeCast ⟨2, ![a, 1]⟩
      (multiReduction .maximumf [1] ⟨1, ![a]⟩ S 0xFF800000#32 hr hφ hmax) h1) h2 (ix2 p t)
      = rowMax fun k : Fin b => S (ix2 p k) :=
    fun t => (column_apply _ h1 h2 p t).trans (rowMax_apply S hr hφ hmax p)
  have hE : ∀ t : Fin b, exp (subf S (broadcastTo ⟨2, ![a, b]⟩ (shapeCast ⟨2, ![a, 1]⟩
      (multiReduction .maximumf [1] ⟨1, ![a]⟩ S 0xFF800000#32 hr hφ hmax) h1) h2)) (ix2 p t)
      = Ideal.exp (S (ix2 p t) - rowMax fun k : Fin b => S (ix2 p k)) :=
    fun t => congrArg (fun y => Ideal.exp (S (ix2 p t) - y)) (hM t)
  refine Eq.trans (congrArg₂ Ideal.div (hE q)
    ((column_apply _ h1 h2 p q).trans ((rowSum_apply _ hr hφ hadd p).trans (Finset.sum_congr rfl fun t _ => hE t)))) ?_
  rfl

end Cert.RowOps

end
-- ==== Proof.BodyEntries.lean ====
/-
  What each kernel body stores, read at one entry of the stored block over the extended reals (changes of float
  format are the identity there).
  The three projections and the output projection store rows·weightsᵀ + bias. The attention body stores, for a
  tile of 1024 queries of one head, the softmax over the 2048 keys of the scaled scores, and those weights times
  the values.
-/
import proofs.«118766_j79869211836976_2_alg».proof.Proof.Gen.KernelIdeal.Skeleton
import proofs.«118766_j79869211836976_2_alg».proof.Proof.MatmulEntry
import proofs.«118766_j79869211836976_2_alg».proof.Proof.LibSoftmaxRows

noncomputable section

namespace Cert.KernelIdeal.Entry

open Cert.KernelIdeal Cert.KernelIdeal.Gen Idealize.ShloMosaic Idealize.ShloMosaic.ValueIdx Cert.Softmax Cert.RowOps

/-- The query projection's block: entry (p, q) is row p of the input tile against row q of the weight slab, plus the bias at q. -/
theorem query_entry (v0 : FVec Ideal S1024x1024 .bf16) (v2 : FVec Ideal S1024x1024 .bf16) (v4 : FVec Ideal S1024 .f32)
    (p : Fin 1024) (q : Fin 1024) :
    k0_pay2 (F := Ideal) v0 v2 v4 (ix2 p q) = (∑ k : Fin 1024, v0 (ix2 p k) * v2 (ix2 q k)) + v4 (ix1 q) := by
  unfold k0_pay2 k0_pay1
  dsimp only
  show matmul dot_S1024x1024_S1024x1024_S1024x1024_1_1_0_0_n_n none (shapeCast S1024x1024 v0 _) (shapeCast S1024x1024 v2 _)
      (constant S1024x1024 .f32 0x00000000#32) (ix2 p q)
    + broadcastTo S1024x1024 (shapeCast S1x1024 v4 _) _ (ix2 p q) = _
  rw [projDot_apply, shapeCast_self, shapeCast_self, broadcastTo_1b_ab_apply, shapeCast_a_1a_apply]

/-- The key projection's block, the same form over its own slab of weights and bias. -/
theorem key_entry (v0 : FVec Ideal S1024x1024 .bf16) (v2 : FVec Ideal S1024x1024 .bf16) (v4 : FVec Ideal S1024 .f32)
    (p : Fin 1024) (q : Fin 1024) :
    k0_pay3 (F := Ideal) v0 v2 v4 (ix2 p q) = (∑ k : Fin 1024, v0 (ix2 p k) * v2 (ix2 q k)) + v4 (ix1 q) := by
  unfold k0_pay3 k0_pay1
  dsimp only
  show matmul dot_S1024x1024_S1024x1024_S1024x1024_1_1_0_0_n_n none (shapeCast S1024x1024 v0 _) (shapeCast S1024x1024 v2 _)
      (constant S1024x1024 .f32 0x00000000#32) (ix2 p q)
    + broadcastTo S1024x1024 (shapeCast S1x1024 v4 _) _ (ix2 p q) = _
  rw [projDot_apply, shapeCast_self, shapeCast_self, broadcastTo_1b_ab_apply, shapeCast_a_1a_apply]

/-- The value projection's block, the same form over its own slab of weights and bias. -/
theorem value_entry (v0 : FVec Ideal S1024x1024 .bf16) (v2 : FVec Ideal S1024x1024 .bf16) (v4 : FVec Ideal S1024 .f32)
    (p : Fin 1024) (q : Fin 1024) :
    k0_pay4 (F := Ideal) v0 v2 v4 (ix2 p q) = (∑ k : Fin 1024, v0 (ix2 p k) * v2 (ix2 q k)) + v4 (ix1 q) := by
  unfold k0_pay4 k0_pay1
  dsimp only
  show matmul dot_S1024x1024_S1024x1024_S1024x1024_1_1_0_0_n_n none (shapeCast S1024x1024 v0 _) (shapeCast S1024x1024 v2 _)
      (constant S1024x1024 .f32 0x00000000#32) (ix2 p q)
    + broadcastTo S1024x1024 (shapeCast S1x1024 v4 _) _ (ix2 p q) = _
  rw [projDot_apply, shapeCast_self, shapeCast_self, broadcastTo_1b_ab_apply, shapeCast_a_1a_apply]

/-- The output projection's block: entry (p, q) is row p of the tile of mixed heads against row q of the weights, plus the bias at q. -/
theorem out_entry (v0 : FVec Ideal S512x1024 .bf16) (v2 : FVec Ideal S1024x1024 .bf16) (v5 : FVec Ideal S1024 .f32)
    (p : Fin 512) (q : Fin 1024) :
    k2_pay1 (F := Ideal) v0 v2 v5 (ix2 p q) = (∑ k : Fin 1024, v0 (ix2 p k) * v2 (ix2 q k)) + v5 (ix1 q) := by
  unfold k2_pay1
  show matmul dot_S512x1024_S1024x1024_S512x1024_1_1_0_0_n_n none (shapeCast S512x1024 v0 _) (shapeCast S1024x1024 v2 _)
      (constant S512x1024 .f32 0x00000000#32) (ix2 p q)
    + broadcastTo S512x1024 (shapeCast S1x1024 v5 _) _ (ix2 p q) = _
  rw [outDot_apply, shapeCast_self, shapeCast_self, broadcastTo_1b_ab_apply, shapeCast_a_1a_apply]

/-- The scaled score of query `p` of the tile against key `t`: their product over the 64 head coordinates, times 0.125. -/
def score (v0 : FVec Ideal S1x1024x64 .bf16) (v2 : FVec Ideal S1x2048x64 .bf16) (p : Fin 1024) (t : Fin 2048) : EReal :=
  (∑ k : Fin 64, v0 (ix3 (0 : Fin 1) p k) * v2 (ix3 (0 : Fin 1) t k)) * Ideal.ofBits .f32 0x3E000000#32

/-- The attention weights of the tile: entry (p, q) is the softmax over the keys of query p's scaled scores, at key q. -/
theorem weights_entry (v0 : FVec Ideal S1x1024x64 .bf16) (v2 : FVec Ideal S1x2048x64 .bf16) (p : Fin 1024) (q : Fin 2048) :
    k1_pay1 (F := Ideal) v0 v2 (ix2 p q) = softmaxRow (fun t => score v0 v2 p t) q := by
  unfold k1_pay1
  dsimp only
  refine (softmax_block_apply (a := 1024) (b := 2048) _ _ _ _ _ _ _ p q).trans ?_
  refine congrArg (fun s => softmaxRow s q) (funext fun t => ?_)
  show matmul dot_S1024x64_S2048x64_S1024x2048_1_1_0_0_n_n none (shapeCast S1024x64 v0 _) (shapeCast S2048x64 v2 _)
      (constant S1024x2048 .f32 0x00000000#32) (ix2 p t) * Ideal.ofBits .f32 0x3E000000#32 = _
  rw [scoreDot_apply]
  unfold score
  exact congrArg (· * Ideal.ofBits .f32 0x3E000000#32)
    (Finset.sum_congr rfl fun k _ => by rw [shapeCast_1ab_ab_apply, shapeCast_1ab_ab_apply])

/-- The stored weights block carries a leading unit axis: entry (0, p, q) is the weights' entry (p, q). -/
theorem weights_store_entry (v0 : FVec Ideal S1x1024x64 .bf16) (v2 : FVec Ideal S1x2048x64 .bf16) (u : Fin 1) (p : Fin 1024) (q : Fin 2048) :
    k1_pay2 (F := Ideal) v0 v2 (ix3 u p q) = k1_pay1 (F := Ideal) v0 v2 (ix2 p q) := by
  unfold k1_pay2
  exact shapeCast_ab_1ab_apply _ _ u p q

/-- The mixed values of the tile: entry (0, p, d) is the sum over the keys of query p's weight at the key times
    that key's value coordinate d. -/
theorem mix_store_entry (v0 : FVec Ideal S1x1024x64 .bf16) (v2 : FVec Ideal S1x2048x64 .bf16) (v4 : FVec Ideal S1x2048x64 .bf16)
    (u : Fin 1) (p : Fin 1024) (d : Fin 64) :
    k1_pay3 (F := Ideal) v0 v2 v4 (ix3 u p d)
      = ∑ t : Fin 2048, k1_pay1 (F := Ideal) v0 v2 (ix2 p t) * v4 (ix3 (0 : Fin 1) t d) := by
  unfold k1_pay3
  refine (shapeCast_ab_1ab_apply _ _ u p d).trans ?_
  show matmul dot_S1024x2048_S2048x64_S1024x64_1_0_0_1_n_n none (truncf .bf16 (k1_pay1 (F := Ideal) v0 v2) _) (shapeCast S2048x64 v4 _)
      (constant S1024x64 .f32 0x00000000#32) (ix2 p d) = _
  rw [mixDot_apply]
  exact Finset.sum_congr rfl fun t _ => by rw [shapeCast_1ab_ab_apply]; rfl

end Cert.KernelIdeal.Entry

end
-- ==== Proof.ProjRegion.lean ====
/-
  The input projection's region, whatever the buffers hold when it is entered.
  Eight grid points; point t stages rows 1024·t … 1024·t + 1023 of the input (all 1024 columns), the whole
  [3072, 1024] weight matrix and the whole bias, and writes back the same rows of three arrays: the query, key and
  value projections, which read weight rows and bias entries 0…1023, 1024…2047 and 2048…3071. So after the region
  each array holds, at (r, f), the sum over e of input[r, e] · weight[off + f, e], plus bias[off + f].
-/
import proofs.«118766_j79869211836976_2_alg».proof.Proof.Gen.KernelIdeal.Frame
import proofs.«118766_j79869211836976_2_alg».proof.Proof.BodyEntries

set_option maxRecDepth 16384

noncomputable section

namespace Cert.KernelIdeal.ProjRegion

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Rows times a slab of 1024 weight rows starting at `off`, plus the matching slab of the bias, entry by entry. -/
def proj (off : Nat) (hoff : off + 1024 ≤ 3072) (A : S8192x1024.Idx → EReal) (Wt : S3072x1024.Idx → EReal) (bias : S3072.Idx → EReal) :
    S8192x1024.Idx → EReal :=
  fun i => (∑ k : Fin 1024, A (ix2 (⟨(i 0).val, (i 0).isLt⟩ : Fin 8192) k)
      * Wt (ix2 (⟨off + (i 1).val, by have h : (i 1).val < 1024 := (i 1).isLt; omega⟩ : Fin 3072) k))
    + bias (ix1 (⟨off + (i 1).val, by have h : (i 1).val < 1024 := (i 1).isLt; omega⟩ : Fin 3072))

theorem zero2 : (![0, 0] : Fin 2 → Nat) = fun _ => 0 := funext fun a => by fin_cases a <;> rfl

/-- The block indices at each of the eight points: the row tile moves with the point, everything else stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- One stored block against the array, for any of the three bodies (`pay`, with its entry-by-entry reading
    `hpay`): if the staged rows are the array's rows under the stored block, and the loaded weight and bias slabs are
    the arrays' slabs at `off`, the body's entry at `j` is the array function at the index under `j`. -/
theorem block_entry (pay : FVec Ideal S1024x1024 .bf16 → FVec Ideal S1024x1024 .bf16 → FVec Ideal S1024 .f32 → FVec Ideal S1024x1024 .bf16)
    (hpay : ∀ v0 v2 v4 (p q : Fin 1024), pay v0 v2 v4 (ix2 p q) = (∑ k : Fin 1024, v0 (ix2 p k) * v2 (ix2 q k)) + v4 (ix1 q))
    (off : Nat) (hoff : off + 1024 ≤ 3072)
    (x0 : FVec Ideal S1024x1024 .bf16) (y1 : FVec Ideal S1024x1024 .bf16) (y2 : FVec Ideal S1024 .f32)
    (A : S8192x1024.Idx → EReal) (Wt : S3072x1024.Idx → EReal) (bias : S3072.Idx → EReal)
    (j : S1024x1024.Idx) (i : S8192x1024.Idx)
    (h0 : ∀ k : Fin 1024, x0 (ix2 (⟨(j 0).val, (j 0).isLt⟩ : Fin 1024) k) = A (ix2 (⟨(i 0).val, (i 0).isLt⟩ : Fin 8192) k))
    (h1 : ∀ (q k : Fin 1024), y1 (ix2 q k) = Wt (ix2 (⟨off + q.val, by omega⟩ : Fin 3072) k))
    (h2 : ∀ q : Fin 1024, y2 (ix1 q) = bias (ix1 (⟨off + q.val, by omega⟩ : Fin 3072)))
    (hcol : (j 1).val = (i 1).val) :
    pay x0 y1 y2 j = proj off hoff A Wt bias i := by
  obtain ⟨p, q, rfl⟩ : ∃ (p q : Fin 1024), j = ix2 p q := ⟨j 0, j 1, eq_ix2 j⟩
  rw [hpay]
  unfold proj
  have hq : (i 1).val = q.val := hcol.symm
  have hW : ∀ k : Fin 1024, Wt (ix2 (⟨off + (i 1).val, by have h : (i 1).val < 1024 := (i 1).isLt; omega⟩ : Fin 3072) k) = y1 (ix2 q k) :=
    fun k => by rw [h1 q k]; exact congrArg (fun r => Wt (ix2 r k)) (Fin.ext (by show off + (i 1).val = off + q.val; rw [hq]))
  have hB : bias (ix1 (⟨off + (i 1).val, by have h : (i 1).val < 1024 := (i 1).isLt; omega⟩ : Fin 3072)) = y2 (ix1 q) := by
    rw [h2 q]; exact congrArg (fun r => bias (ix1 r)) (Fin.ext (by show off + (i 1).val = off + q.val; rw [hq]))
  rw [hB]
  exact congrArg (· + y2 (ix1 q)) (Finset.sum_congr rfl fun k _ => by rw [hW k, h0 k])

/-! ## The query projection: output window 3, weight rows 0 … 1023 -/

/-- What point `t` writes back to the query array is block `t` of the projection of the region's input arrays. -/
theorem flushed_eq3 (c : Dev nD) (t : Fin cfg0.N) :
    (dat0 V c).flushed 3 t = ((cfg0.win 3).blk t).view.read (Elt Ideal) (proj 0 (by decide) (V c main_v1) (V c main_v2) (V c main_arg2)) := by
  show (cfg0.win 3).cut (grid0.coords t) ((dat0 V c).after 3 t) = _
  rw [after0_3]
  unfold out0_3
  rw [View.canon_unit_zero zero2]
  simp only [View.ld_unit_zero (S := S1024x1024) zero2]
  obtain ⟨e00, e01, e10, e11, e20, e30, e31, e40, e41, e50, e51⟩ := block_indices t
  funext j
  show k0_pay2 (F := Ideal) (iblk0 V c 0 t) (View.ld (iblk0 V c 1 t) r0_1) (View.ld (iblk0 V c 2 t) r0_2) j
    = proj 0 (by decide) (V c main_v1) (V c main_v2) (V c main_arg2) (((cfg0.win 3).blk t).view.emb j)
  refine block_entry (k0_pay2 (F := Ideal)) query_entry 0 (by decide) (iblk0 V c 0 t) (View.ld (iblk0 V c 1 t) r0_1) (View.ld (iblk0 V c 2 t) r0_2)
    (V c main_v1) (V c main_v2) (V c main_arg2) j (((cfg0.win 3).blk t).view.emb j) (fun k => ?_) (fun q k => ?_) (fun q => ?_) ?_
  · show V c main_v1 (((cfg0.win 0).blk t).view.emb (ix2 (⟨(j 0).val, (j 0).isLt⟩ : Fin 1024) k)) = V c main_v1 _
    refine congrArg (V c main_v1) (funext fun a => Fin.ext ?_)
    match a with
    | ⟨0, _⟩ =>
      show win0_0.index t (0 : Fin 2) * 1024 + 1 * (j 0).val = win0_3.index t (0 : Fin 2) * 1024 + 1 * (j 0).val
      rw [e00, e30]
    | ⟨1, _⟩ =>
      show win0_0.index t (1 : Fin 2) * 1024 + 1 * k.val = k.val
      rw [e01]; omega
  · show V c main_v2 (((cfg0.win 1).blk t).view.emb (r0_1.emb (ix2 q k))) = V c main_v2 _
    refine congrArg (V c main_v2) (funext fun a => Fin.ext ?_)
    match a with
    | ⟨0, _⟩ => show win0_1.index t (0 : Fin 2) * 3072 + 1 * (0 + 1 * q.val) = 0 + q.val; rw [e10]; omega
    | ⟨1, _⟩ => show win0_1.index t (1 : Fin 2) * 1024 + 1 * (0 + 1 * k.val) = k.val; rw [e11]; omega
  · show V c main_arg2 (((cfg0.win 2).blk t).view.emb (r0_2.emb (ix1 q))) = V c main_arg2 _
    refine congrArg (V c main_arg2) (funext fun a => Fin.ext ?_)
    match a with
    | ⟨0, _⟩ => show win0_2.index t (0 : Fin 1) * 3072 + 1 * (0 + 1 * q.val) = 0 + q.val; rw [e20]; omega
  · show (j 1).val = win0_3.index t (1 : Fin 2) * 1024 + 1 * (j 1).val
    rw [e31]; omega

/-- An index of the query array is in point `t`'s block iff each coordinate is in the block's range on its axis. -/
theorem mem_blk3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3_0).slice (win0_3.rect t)).set ↔ _
  rw [View.set_slice_whole, Rect.mem_set_unit]
  exact Iff.rfl

/-- Every index of the query array is in the block of the point its row falls in. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 8 := N_0
  have hlt : (i 0).val / 1024 < cfg0.N := by show (i 0).val / 1024 < grid0.N; rw [hN]; omega
  refine ⟨⟨(i 0).val / 1024, hlt⟩, flush0_3 _, ?_⟩
  rw [mem_blk3]
  obtain ⟨-, -, -, -, -, e30, e31, e40, e41, e50, e51⟩ := block_indices ⟨(i 0).val / 1024, hlt⟩
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, hlt⟩ (1 : Fin 2) * 1024 ≤ (i 1).val ∧ (i 1).val < win0_3.index ⟨(i 0).val / 1024, hlt⟩ (1 : Fin 2) * 1024 + 1024
    rw [e31]; omega

/-- The query array after the region: the projection through weight rows 0 … 1023 of the input arrays as the region found them. -/
theorem final3 (c : Dev nD) :
    (dat0 V c).arrAt 3 cfg0.N = proj 0 (by decide) (V c main_v1) (V c main_v2) (V c main_arg2) :=
  (dat0 V c).arrAt_eq_of_cover 3 _ (fun t _ => flushed_eq3 V c t) cover3

/-! ## The key projection: output window 4, weight rows 1024 … 2047 -/

/-- What point `t` writes back to the key array is block `t` of the projection of the region's input arrays. -/
theorem flushed_eq4 (c : Dev nD) (t : Fin cfg0.N) :
    (dat0 V c).flushed 4 t = ((cfg0.win 4).blk t).view.read (Elt Ideal) (proj 1024 (by decide) (V c main_v1) (V c main_v2) (V c main_arg2)) := by
  show (cfg0.win 4).cut (grid0.coords t) ((dat0 V c).after 4 t) = _
  rw [after0_4]
  unfold out0_4
  rw [View.canon_unit_zero zero2]
  simp only [View.ld_unit_zero (S := S1024x1024) zero2]
  obtain ⟨e00, e01, e10, e11, e20, e30, e31, e40, e41, e50, e51⟩ := block_indices t
  funext j
  show k0_pay3 (F := Ideal) (iblk0 V c 0 t) (View.ld (iblk0 V c 1 t) r0_3) (View.ld (iblk0 V c 2 t) r0_4) j
    = proj 1024 (by decide) (V c main_v1) (V c main_v2) (V c main_arg2) (((cfg0.win 4).blk t).view.emb j)
  refine block_entry (k0_pay3 (F := Ideal)) key_entry 1024 (by decide) (iblk0 V c 0 t) (View.ld (iblk0 V c 1 t) r0_3) (View.ld (iblk0 V c 2 t) r0_4)
    (V c main_v1) (V c main_v2) (V c main_arg2) j (((cfg0.win 4).blk t).view.emb j) (fun k => ?_) (fun q k => ?_) (fun q => ?_) ?_
  · show V c main_v1 (((cfg0.win 0).blk t).view.emb (ix2 (⟨(j 0).val, (j 0).isLt⟩ : Fin 1024) k)) = V c main_v1 _
    refine congrArg (V c main_v1) (funext fun a => Fin.ext ?_)
    match a with
    | ⟨0, _⟩ =>
      show win0_0.index t (0 : Fin 2) * 1024 + 1 * (j 0).val = win0_4.index t (0 : Fin 2) * 1024 + 1 * (j 0).val
      rw [e00, e40]
    | ⟨1, _⟩ =>
      show win0_0.index t (1 : Fin 2) * 1024 + 1 * k.val = k.val
      rw [e01]; omega
  · show V c main_v2 (((cfg0.win 1).blk t).view.emb (r0_3.emb (ix2 q k))) = V c main_v2 _
    refine congrArg (V c main_v2) (funext fun a => Fin.ext ?_)
    match a with
    | ⟨0, _⟩ => show win0_1.index t (0 : Fin 2) * 3072 + 1 * (1024 + 1 * q.val) = 1024 + q.val; rw [e10]; omega
    | ⟨1, _⟩ => show win0_1.index t (1 : Fin 2) * 1024 + 1 * (0 + 1 * k.val) = k.val; rw [e11]; omega
  · show V c main_arg2 (((cfg0.win 2).blk t).view.emb (r0_4.emb (ix1 q))) = V c main_arg2 _
    refine congrArg (V c main_arg2) (funext fun a => Fin.ext ?_)
    match a with
    | ⟨0, _⟩ => show win0_2.index t (0 : Fin 1) * 3072 + 1 * (1024 + 1 * q.val) = 1024 + q.val; rw [e20]; omega
  · show (j 1).val = win0_4.index t (1 : Fin 2) * 1024 + 1 * (j 1).val
    rw [e41]; omega

/-- An index of the key array is in point `t`'s block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3_1).slice (win0_4.rect t)).set ↔ _
  rw [View.set_slice_whole, Rect.mem_set_unit]
  exact Iff.rfl

/-- Every index of the key array is in the block of the point its row falls in. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 8 := N_0
  have hlt : (i 0).val / 1024 < cfg0.N := by show (i 0).val / 1024 < grid0.N; rw [hN]; omega
  refine ⟨⟨(i 0).val / 1024, hlt⟩, flush0_4 _, ?_⟩
  rw [mem_blk4]
  obtain ⟨-, -, -, -, -, e30, e31, e40, e41, e50, e51⟩ := block_indices ⟨(i 0).val / 1024, hlt⟩
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, hlt⟩ (1 : Fin 2) * 1024 ≤ (i 1).val ∧ (i 1).val < win0_4.index ⟨(i 0).val / 1024, hlt⟩ (1 : Fin 2) * 1024 + 1024
    rw [e41]; omega

/-- The key array after the region: the projection through weight rows 1024 … 2047. -/
theorem final4 (c : Dev nD) :
    (dat0 V c).arrAt 4 cfg0.N = proj 1024 (by decide) (V c main_v1) (V c main_v2) (V c main_arg2) :=
  (dat0 V c).arrAt_eq_of_cover 4 _ (fun t _ => flushed_eq4 V c t) cover4

/-! ## The value projection: output window 5, weight rows 2048 … 3071 -/

/-- What point `t` writes back to the value array is block `t` of the projection of the region's input arrays. -/
theorem flushed_eq5 (c : Dev nD) (t : Fin cfg0.N) :
    (dat0 V c).flushed 5 t = ((cfg0.win 5).blk t).view.read (Elt Ideal) (proj 2048 (by decide) (V c main_v1) (V c main_v2) (V c main_arg2)) := by
  show (cfg0.win 5).cut (grid0.coords t) ((dat0 V c).after 5 t) = _
  rw [after0_5]
  unfold out0_5
  rw [View.canon_unit_zero zero2]
  simp only [View.ld_unit_zero (S := S1024x1024) zero2]
  obtain ⟨e00, e01, e10, e11, e20, e30, e31, e40, e41, e50, e51⟩ := block_indices t
  funext j
  show k0_pay4 (F := Ideal) (iblk0 V c 0 t) (View.ld (iblk0 V c 1 t) r0_5) (View.ld (iblk0 V c 2 t) r0_6) j
    = proj 2048 (by decide) (V c main_v1) (V c main_v2) (V c main_arg2) (((cfg0.win 5).blk t).view.emb j)
  refine block_entry (k0_pay4 (F := Ideal)) value_entry 2048 (by decide) (iblk0 V c 0 t) (View.ld (iblk0 V c 1 t) r0_5) (View.ld (iblk0 V c 2 t) r0_6)
    (V c main_v1) (V c main_v2) (V c main_arg2) j (((cfg0.win 5).blk t).view.emb j) (fun k => ?_) (fun q k => ?_) (fun q => ?_) ?_
  · show V c main_v1 (((cfg0.win 0).blk t).view.emb (ix2 (⟨(j 0).val, (j 0).isLt⟩ : Fin 1024) k)) = V c main_v1 _
    refine congrArg (V c main_v1) (funext fun a => Fin.ext ?_)
    match a with
    | ⟨0, _⟩ =>
      show win0_0.index t (0 : Fin 2) * 1024 + 1 * (j 0).val = win0_5.index t (0 : Fin 2) * 1024 + 1 * (j 0).val
      rw [e00, e50]
    | ⟨1, _⟩ =>
      show win0_0.index t (1 : Fin 2) * 1024 + 1 * k.val = k.val
      rw [e01]; omega
  · show V c main_v2 (((cfg0.win 1).blk t).view.emb (r0_5.emb (ix2 q k))) = V c main_v2 _
    refine congrArg (V c main_v2) (funext fun a => Fin.ext ?_)
    match a with
    | ⟨0, _⟩ => show win0_1.index t (0 : Fin 2) * 3072 + 1 * (2048 + 1 * q.val) = 2048 + q.val; rw [e10]; omega
    | ⟨1, _⟩ => show win0_1.index t (1 : Fin 2) * 1024 + 1 * (0 + 1 * k.val) = k.val; rw [e11]; omega
  · show V c main_arg2 (((cfg0.win 2).blk t).view.emb (r0_6.emb (ix1 q))) = V c main_arg2 _
    refine congrArg (V c main_arg2) (funext fun a => Fin.ext ?_)
    match a with
    | ⟨0, _⟩ => show win0_2.index t (0 : Fin 1) * 3072 + 1 * (2048 + 1 * q.val) = 2048 + q.val; rw [e20]; omega
  · show (j 1).val = win0_5.index t (1 : Fin 2) * 1024 + 1 * (j 1).val
    rw [e51]; omega

/-- An index of the value array is in point `t`'s block iff each coordinate is in the block's range on its axis. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v3_2).slice (win0_5.rect t)).set ↔ _
  rw [View.set_slice_whole, Rect.mem_set_unit]
  exact Iff.rfl

/-- Every index of the value array is in the block of the point its row falls in. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 8 := N_0
  have hlt : (i 0).val / 1024 < cfg0.N := by show (i 0).val / 1024 < grid0.N; rw [hN]; omega
  refine ⟨⟨(i 0).val / 1024, hlt⟩, flush0_5 _, ?_⟩
  rw [mem_blk5]
  obtain ⟨-, -, -, -, -, e30, e31, e40, e41, e50, e51⟩ := block_indices ⟨(i 0).val / 1024, hlt⟩
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, hlt⟩ (1 : Fin 2) * 1024 ≤ (i 1).val ∧ (i 1).val < win0_5.index ⟨(i 0).val / 1024, hlt⟩ (1 : Fin 2) * 1024 + 1024
    rw [e51]; omega

/-- The value array after the region: the projection through weight rows 2048 … 3071. -/
theorem final5 (c : Dev nD) :
    (dat0 V c).arrAt 5 cfg0.N = proj 2048 (by decide) (V c main_v1) (V c main_v2) (V c main_arg2) :=
  (dat0 V c).arrAt_eq_of_cover 5 _ (fun t _ => flushed_eq5 V c t) cover5

end Cert.KernelIdeal.ProjRegion

end
-- ==== Proof.AttnRegion.lean ====
/-
  The attention region, whatever the buffers hold when it is entered.
  128 grid points: point t is head-of-batch g = t / 2 (64 of them) and query tile t % 2 (1024 queries each). It
  stages the tile's queries and all 2048 keys and values of head g, and writes back the tile's rows of two arrays:
  the attention weights [64, 2048, 2048] and the mixed values [64, 2048, 64]. So after the region the weights
  array holds, at (g, s, t), the softmax over the keys of the scaled scores of query s of head g, at key t; and the
  mixed array holds, at (g, s, d), the sum over the keys t of that weight times value[g, t, d].
-/
import proofs.«118766_j79869211836976_2_alg».proof.Proof.Gen.KernelIdeal.Frame
import proofs.«118766_j79869211836976_2_alg».proof.Proof.BodyEntries

set_option maxRecDepth 16384

noncomputable section

namespace Cert.KernelIdeal.AttnRegion

open Cert.KernelIdeal Cert.KernelIdeal.Gen Cert.KernelIdeal.Entry Cert.Softmax
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The scaled score of query `s` against key `t` of head `g`: their product over the 64 head coordinates, times 0.125. -/
def scoreAt (Qf Kf : S64x2048x64.Idx → EReal) (g : Fin 64) (s t : Fin 2048) : EReal :=
  (∑ k : Fin 64, Qf (ix3 g s k) * Kf (ix3 g t k)) * Ideal.ofBits .f32 0x3E000000#32

/-- The attention weights as one function of the query and key arrays. -/
def weights (Qf Kf : S64x2048x64.Idx → EReal) : S64x2048x2048.Idx → EReal :=
  fun i => softmaxRow (fun t => scoreAt Qf Kf (⟨(i 0).val, (i 0).isLt⟩ : Fin 64) (⟨(i 1).val, (i 1).isLt⟩ : Fin 2048) t)
    (⟨(i 2).val, (i 2).isLt⟩ : Fin 2048)

/-- The mixed values as one function of the query, key and value arrays. -/
def mixed (Qf Kf Vf : S64x2048x64.Idx → EReal) : S64x2048x64.Idx → EReal :=
  fun i => ∑ t : Fin 2048,
    softmaxRow (fun t' => scoreAt Qf Kf (⟨(i 0).val, (i 0).isLt⟩ : Fin 64) (⟨(i 1).val, (i 1).isLt⟩ : Fin 2048) t') t
      * Vf (ix3 (⟨(i 0).val, (i 0).isLt⟩ : Fin 64) t (⟨(i 2).val, (i 2).isLt⟩ : Fin 64))

theorem zero3 : (![0, 0, 0] : Fin 3 → Nat) = fun _ => 0 := funext fun a => by fin_cases a <;> rfl

/-- The block indices at each of the 128 points: the head is t / 2 and the query tile t % 2; keys and values are
    staged whole per head. -/
theorem block_indices : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0
    ∧ win1_4.index t (0 : Fin 3) = t.val / 2 ∧ win1_4.index t (1 : Fin 3) = t.val % 2 ∧ win1_4.index t (2 : Fin 3) = 0 :=
  (by decide +kernel : ∀ t : Fin grid1.N, _)

/-- A tile's scaled scores are the array's, when the staged queries and keys are the arrays' rows. -/
theorem score_eq (x0 : FVec Ideal S1x1024x64 .bf16) (x1 : FVec Ideal S1x2048x64 .bf16) (Qf Kf : S64x2048x64.Idx → EReal)
    (p : Fin 1024) (g : Fin 64) (s : Fin 2048)
    (h0 : ∀ k : Fin 64, x0 (ix3 (0 : Fin 1) p k) = Qf (ix3 g s k))
    (h1 : ∀ (t : Fin 2048) (k : Fin 64), x1 (ix3 (0 : Fin 1) t k) = Kf (ix3 g t k)) :
    (fun t => score x0 x1 p t) = fun t => scoreAt Qf Kf g s t :=
  funext fun t => congrArg (· * Ideal.ofBits .f32 0x3E000000#32)
    (Finset.sum_congr rfl fun k _ => by rw [h0 k, h1 t k])

/-- One stored weights block against the array. -/
theorem weights_block_entry (x0 : FVec Ideal S1x1024x64 .bf16) (x1 : FVec Ideal S1x2048x64 .bf16) (Qf Kf : S64x2048x64.Idx → EReal)
    (j : S1x1024x2048.Idx) (i : S64x2048x2048.Idx)
    (h0 : ∀ k : Fin 64, x0 (ix3 (0 : Fin 1) (⟨(j 1).val, (j 1).isLt⟩ : Fin 1024) k)
      = Qf (ix3 (⟨(i 0).val, (i 0).isLt⟩ : Fin 64) (⟨(i 1).val, (i 1).isLt⟩ : Fin 2048) k))
    (h1 : ∀ (t : Fin 2048) (k : Fin 64), x1 (ix3 (0 : Fin 1) t k) = Kf (ix3 (⟨(i 0).val, (i 0).isLt⟩ : Fin 64) t k))
    (hcol : (j 2).val = (i 2).val) :
    k1_pay2 (F := Ideal) x0 x1 j = weights Qf Kf i := by
  obtain ⟨u, p, q, rfl⟩ : ∃ (u : Fin 1) (p : Fin 1024) (q : Fin 2048), j = ix3 u p q := ⟨j 0, j 1, j 2, eq_ix3 j⟩
  rw [weights_store_entry, weights_entry]
  unfold weights
  have hq : (⟨(i 2).val, (i 2).isLt⟩ : Fin 2048) = q := Fin.ext hcol.symm
  rw [hq, score_eq x0 x1 Qf Kf p _ _ h0 h1]

/-- One stored block of mixed values against the array. -/
theorem mixed_block_entry (x0 : FVec Ideal S1x1024x64 .bf16) (x1 x2 : FVec Ideal S1x2048x64 .bf16) (Qf Kf Vf : S64x2048x64.Idx → EReal)
    (j : S1x1024x64.Idx) (i : S64x2048x64.Idx)
    (h0 : ∀ k : Fin 64, x0 (ix3 (0 : Fin 1) (⟨(j 1).val, (j 1).isLt⟩ : Fin 1024) k)
      = Qf (ix3 (⟨(i 0).val, (i 0).isLt⟩ : Fin 64) (⟨(i 1).val, (i 1).isLt⟩ : Fin 2048) k))
    (h1 : ∀ (t : Fin 2048) (k : Fin 64), x1 (ix3 (0 : Fin 1) t k) = Kf (ix3 (⟨(i 0).val, (i 0).isLt⟩ : Fin 64) t k))
    (h2 : ∀ (t : Fin 2048) (d : Fin 64), x2 (ix3 (0 : Fin 1) t d) = Vf (ix3 (⟨(i 0).val, (i 0).isLt⟩ : Fin 64) t d))
    (hcol : (j 2).val = (i 2).val) :
    k1_pay3 (F := Ideal) x0 x1 x2 j = mixed Qf Kf Vf i := by
  obtain ⟨u, p, d, rfl⟩ : ∃ (u : Fin 1) (p : Fin 1024) (d : Fin 64), j = ix3 u p d := ⟨j 0, j 1, j 2, eq_ix3 j⟩
  rw [mix_store_entry]
  unfold mixed
  have hd : (⟨(i 2).val, (i 2).isLt⟩ : Fin 64) = d := Fin.ext hcol.symm
  rw [hd]
  refine Finset.sum_congr rfl fun t _ => ?_
  rw [weights_entry, score_eq x0 x1 Qf Kf p _ _ h0 h1, h2 t d]

/-! ## The weights: output window 4 -/

/-- What point `t` writes back to the weights array is block `t` of the weights of the region's query and key arrays. -/
theorem flushed_eq4 (c : Dev nD) (t : Fin cfg1.N) :
    (dat1 V c).flushed 4 t = ((cfg1.win 4).blk t).view.read (Elt Ideal) (weights (V c main_v9) (V c main_v12)) := by
  show (cfg1.win 4).cut (grid1.coords t) ((dat1 V c).after 4 t) = _
  rw [after1_4]
  unfold out1_4
  rw [View.canon_unit_zero zero3]
  simp only [View.ld_unit_zero (S := S1x1024x64) zero3, View.ld_unit_zero (S := S1x2048x64) zero3]
  obtain ⟨e00, e01, e02, e10, e11, e12, e20, e21, e22, e30, e31, e32, e40, e41, e42⟩ := block_indices t
  funext j
  show k1_pay2 (F := Ideal) (iblk1 V c 0 t) (iblk1 V c 1 t) j
    = weights (V c main_v9) (V c main_v12) (((cfg1.win 4).blk t).view.emb j)
  have hj0 : (j 0).val < 1 := (j 0).isLt
  refine weights_block_entry (iblk1 V c 0 t) (iblk1 V c 1 t) (V c main_v9) (V c main_v12) j
    (((cfg1.win 4).blk t).view.emb j) (fun k => ?_) (fun s k => ?_) ?_
  · show V c main_v9 (((cfg1.win 0).blk t).view.emb (ix3 (0 : Fin 1) (⟨(j 1).val, (j 1).isLt⟩ : Fin 1024) k)) = V c main_v9 _
    refine congrArg (V c main_v9) (funext fun a => Fin.ext ?_)
    match a with
    | ⟨0, _⟩ =>
      show win1_0.index t (0 : Fin 3) * 1 + 1 * 0 = win1_4.index t (0 : Fin 3) * 1 + 1 * (j 0).val
      rw [e00, e40]; omega
    | ⟨1, _⟩ =>
      show win1_0.index t (1 : Fin 3) * 1024 + 1 * (j 1).val = win1_4.index t (1 : Fin 3) * 1024 + 1 * (j 1).val
      rw [e01, e41]
    | ⟨2, _⟩ =>
      show win1_0.index t (2 : Fin 3) * 64 + 1 * k.val = k.val
      rw [e02]; omega
  · show V c main_v12 (((cfg1.win 1).blk t).view.emb (ix3 (0 : Fin 1) s k)) = V c main_v12 _
    refine congrArg (V c main_v12) (funext fun a => Fin.ext ?_)
    match a with
    | ⟨0, _⟩ =>
      show win1_1.index t (0 : Fin 3) * 1 + 1 * 0 = win1_4.index t (0 : Fin 3) * 1 + 1 * (j 0).val
      rw [e10, e40]; omega
    | ⟨1, _⟩ =>
      show win1_1.index t (1 : Fin 3) * 2048 + 1 * s.val = s.val
      rw [e11]; omega
    | ⟨2, _⟩ =>
      show win1_1.index t (2 : Fin 3) * 64 + 1 * k.val = k.val
      rw [e12]; omega
  · show (j 2).val = win1_4.index t (2 : Fin 3) * 2048 + 1 * (j 2).val
    rw [e42]; omega

/-- An index of the array is in point `t`'s block iff each coordinate is in the block's range on its axis. -/
theorem mem_blk4 (t : Fin cfg1.N) (i : S64x2048x2048.Idx) :
    i ∈ ((cfg1.win 4).blk t).view.set ↔ ∀ a : Fin 3, win1_4.index t a * S1x1024x2048.size a ≤ (i a).val ∧ (i a).val < win1_4.index t a * S1x1024x2048.size a + S1x1024x2048.size a := by
  show i ∈ ((View.whole main_v16_1).slice (win1_4.rect t)).set ↔ _
  rw [View.set_slice_whole, Rect.mem_set_unit]
  exact Iff.rfl

/-- Every index of the array is in the block of the point of its head and query tile. -/
theorem cover4 (i : S64x2048x2048.Idx) : ∃ t : Fin cfg1.N, (cfg1.win 4).flush t = true ∧ i ∈ ((cfg1.win 4).blk t).view.set := by
  have hi0 : (i 0).val < 64 := (i 0).isLt
  have hi1 : (i 1).val < 2048 := (i 1).isLt
  have hi2 : (i 2).val < 2048 := (i 2).isLt
  have hN : grid1.N = 128 := N_1
  have hlt : (i 0).val * 2 + (i 1).val / 1024 < cfg1.N := by show (i 0).val * 2 + (i 1).val / 1024 < grid1.N; rw [hN]; omega
  refine ⟨⟨(i 0).val * 2 + (i 1).val / 1024, hlt⟩, flush1_4 _, ?_⟩
  rw [mem_blk4]
  obtain ⟨-, -, -, -, -, -, -, -, -, e30, e31, e32, e40, e41, e42⟩ := block_indices ⟨(i 0).val * 2 + (i 1).val / 1024, hlt⟩
  intro a
  match a with
  | ⟨0, _⟩ =>
    show win1_4.index ⟨(i 0).val * 2 + (i 1).val / 1024, hlt⟩ (0 : Fin 3) * 1 ≤ (i 0).val ∧ (i 0).val < win1_4.index ⟨(i 0).val * 2 + (i 1).val / 1024, hlt⟩ (0 : Fin 3) * 1 + 1
    rw [e40]; show ((i 0).val * 2 + (i 1).val / 1024) / 2 * 1 ≤ (i 0).val ∧ (i 0).val < ((i 0).val * 2 + (i 1).val / 1024) / 2 * 1 + 1; omega
  | ⟨1, _⟩ =>
    show win1_4.index ⟨(i 0).val * 2 + (i 1).val / 1024, hlt⟩ (1 : Fin 3) * 1024 ≤ (i 1).val ∧ (i 1).val < win1_4.index ⟨(i 0).val * 2 + (i 1).val / 1024, hlt⟩ (1 : Fin 3) * 1024 + 1024
    rw [e41]; show ((i 0).val * 2 + (i 1).val / 1024) % 2 * 1024 ≤ (i 1).val ∧ (i 1).val < ((i 0).val * 2 + (i 1).val / 1024) % 2 * 1024 + 1024; omega
  | ⟨2, _⟩ =>
    show win1_4.index ⟨(i 0).val * 2 + (i 1).val / 1024, hlt⟩ (2 : Fin 3) * 2048 ≤ (i 2).val ∧ (i 2).val < win1_4.index ⟨(i 0).val * 2 + (i 1).val / 1024, hlt⟩ (2 : Fin 3) * 2048 + 2048
    rw [e42]; omega

/-- The weights array after the region is the weights of the query and key arrays as the region found them. -/
theorem final4 (c : Dev nD) : (dat1 V c).arrAt 4 cfg1.N = weights (V c main_v9) (V c main_v12) :=
  (dat1 V c).arrAt_eq_of_cover 4 _ (fun t _ => flushed_eq4 V c t) cover4

/-! ## The mixed values: output window 3 -/

/-- What point `t` writes back to the mixed array is block `t` of the mixed values of the region's three arrays. -/
theorem flushed_eq3 (c : Dev nD) (t : Fin cfg1.N) :
    (dat1 V c).flushed 3 t = ((cfg1.win 3).blk t).view.read (Elt Ideal) (mixed (V c main_v9) (V c main_v12) (V c main_v15)) := by
  show (cfg1.win 3).cut (grid1.coords t) ((dat1 V c).after 3 t) = _
  rw [after1_3]
  unfold out1_3
  rw [View.canon_unit_zero zero3]
  simp only [View.ld_unit_zero (S := S1x1024x64) zero3, View.ld_unit_zero (S := S1x2048x64) zero3]
  obtain ⟨e00, e01, e02, e10, e11, e12, e20, e21, e22, e30, e31, e32, e40, e41, e42⟩ := block_indices t
  funext j
  show k1_pay3 (F := Ideal) (iblk1 V c 0 t) (iblk1 V c 1 t) (iblk1 V c 2 t) j
    = mixed (V c main_v9) (V c main_v12) (V c main_v15) (((cfg1.win 3).blk t).view.emb j)
  have hj0 : (j 0).val < 1 := (j 0).isLt
  refine mixed_block_entry (iblk1 V c 0 t) (iblk1 V c 1 t) (iblk1 V c 2 t) (V c main_v9) (V c main_v12) (V c main_v15) j
    (((cfg1.win 3).blk t).view.emb j) (fun k => ?_) (fun s k => ?_) (fun s k => ?_) ?_
  · show V c main_v9 (((cfg1.win 0).blk t).view.emb (ix3 (0 : Fin 1) (⟨(j 1).val, (j 1).isLt⟩ : Fin 1024) k)) = V c main_v9 _
    refine congrArg (V c main_v9) (funext fun a => Fin.ext ?_)
    match a with
    | ⟨0, _⟩ =>
      show win1_0.index t (0 : Fin 3) * 1 + 1 * 0 = win1_3.index t (0 : Fin 3) * 1 + 1 * (j 0).val
      rw [e00, e30]; omega
    | ⟨1, _⟩ =>
      show win1_0.index t (1 : Fin 3) * 1024 + 1 * (j 1).val = win1_3.index t (1 : Fin 3) * 1024 + 1 * (j 1).val
      rw [e01, e31]
    | ⟨2, _⟩ =>
      show win1_0.index t (2 : Fin 3) * 64 + 1 * k.val = k.val
      rw [e02]; omega
  · show V c main_v12 (((cfg1.win 1).blk t).view.emb (ix3 (0 : Fin 1) s k)) = V c main_v12 _
    refine congrArg (V c main_v12) (funext fun a => Fin.ext ?_)
    match a with
    | ⟨0, _⟩ =>
      show win1_1.index t (0 : Fin 3) * 1 + 1 * 0 = win1_3.index t (0 : Fin 3) * 1 + 1 * (j 0).val
      rw [e10, e30]; omega
    | ⟨1, _⟩ =>
      show win1_1.index t (1 : Fin 3) * 2048 + 1 * s.val = s.val
      rw [e11]; omega
    | ⟨2, _⟩ =>
      show win1_1.index t (2 : Fin 3) * 64 + 1 * k.val = k.val
      rw [e12]; omega
  · show V c main_v15 (((cfg1.win 2).blk t).view.emb (ix3 (0 : Fin 1) s k)) = V c main_v15 _
    refine congrArg (V c main_v15) (funext fun a => Fin.ext ?_)
    match a with
    | ⟨0, _⟩ =>
      show win1_2.index t (0 : Fin 3) * 1 + 1 * 0 = win1_3.index t (0 : Fin 3) * 1 + 1 * (j 0).val
      rw [e20, e30]; omega
    | ⟨1, _⟩ =>
      show win1_2.index t (1 : Fin 3) * 2048 + 1 * s.val = s.val
      rw [e21]; omega
    | ⟨2, _⟩ =>
      show win1_2.index t (2 : Fin 3) * 64 + 1 * k.val = k.val
      rw [e22]; omega
  · show (j 2).val = win1_3.index t (2 : Fin 3) * 64 + 1 * (j 2).val
    rw [e32]; omega

/-- An index of the array is in point `t`'s block iff each coordinate is in the block's range on its axis. -/
theorem mem_blk3 (t : Fin cfg1.N) (i : S64x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v16_0).slice (win1_3.rect t)).set ↔ _
  rw [View.set_slice_whole, Rect.mem_set_unit]
  exact Iff.rfl

/-- Every index of the array is in the block of the point of its head and query tile. -/
theorem cover3 (i : S64x2048x64.Idx) : ∃ t : Fin cfg1.N, (cfg1.win 3).flush t = true ∧ i ∈ ((cfg1.win 3).blk t).view.set := by
  have hi0 : (i 0).val < 64 := (i 0).isLt
  have hi1 : (i 1).val < 2048 := (i 1).isLt
  have hi2 : (i 2).val < 64 := (i 2).isLt
  have hN : grid1.N = 128 := N_1
  have hlt : (i 0).val * 2 + (i 1).val / 1024 < cfg1.N := by show (i 0).val * 2 + (i 1).val / 1024 < grid1.N; rw [hN]; omega
  refine ⟨⟨(i 0).val * 2 + (i 1).val / 1024, hlt⟩, flush1_3 _, ?_⟩
  rw [mem_blk3]
  obtain ⟨-, -, -, -, -, -, -, -, -, e30, e31, e32, e40, e41, e42⟩ := block_indices ⟨(i 0).val * 2 + (i 1).val / 1024, hlt⟩
  intro a
  match a with
  | ⟨0, _⟩ =>
    show win1_3.index ⟨(i 0).val * 2 + (i 1).val / 1024, hlt⟩ (0 : Fin 3) * 1 ≤ (i 0).val ∧ (i 0).val < win1_3.index ⟨(i 0).val * 2 + (i 1).val / 1024, hlt⟩ (0 : Fin 3) * 1 + 1
    rw [e30]; show ((i 0).val * 2 + (i 1).val / 1024) / 2 * 1 ≤ (i 0).val ∧ (i 0).val < ((i 0).val * 2 + (i 1).val / 1024) / 2 * 1 + 1; omega
  | ⟨1, _⟩ =>
    show win1_3.index ⟨(i 0).val * 2 + (i 1).val / 1024, hlt⟩ (1 : Fin 3) * 1024 ≤ (i 1).val ∧ (i 1).val < win1_3.index ⟨(i 0).val * 2 + (i 1).val / 1024, hlt⟩ (1 : Fin 3) * 1024 + 1024
    rw [e31]; show ((i 0).val * 2 + (i 1).val / 1024) % 2 * 1024 ≤ (i 1).val ∧ (i 1).val < ((i 0).val * 2 + (i 1).val / 1024) % 2 * 1024 + 1024; omega
  | ⟨2, _⟩ =>
    show win1_3.index ⟨(i 0).val * 2 + (i 1).val / 1024, hlt⟩ (2 : Fin 3) * 64 ≤ (i 2).val ∧ (i 2).val < win1_3.index ⟨(i 0).val * 2 + (i 1).val / 1024, hlt⟩ (2 : Fin 3) * 64 + 64
    rw [e32]; omega

/-- The mixed array after the region is the mixed values of the three arrays as the region found them. -/
theorem final3 (c : Dev nD) : (dat1 V c).arrAt 3 cfg1.N = mixed (V c main_v9) (V c main_v12) (V c main_v15) :=
  (dat1 V c).arrAt_eq_of_cover 3 _ (fun t _ => flushed_eq3 V c t) cover3

end Cert.KernelIdeal.AttnRegion

end
-- ==== Proof.OutRegion.lean ====
/-
  The output projection's region, whatever the buffers hold when it is entered.
  Sixteen grid points; point t stages rows 512·t … 512·t + 511 of the mixed heads (all 1024 columns), the whole
  weight matrix and the whole bias, and writes back the same rows of the result. So after the region the result
  array holds, at (r, f), the sum over e of heads[r, e] · weight[f, e], plus bias[f]: every row is in exactly the
  block of point r / 512.
-/
import proofs.«118766_j79869211836976_2_alg».proof.Proof.Gen.KernelIdeal.Frame
import proofs.«118766_j79869211836976_2_alg».proof.Proof.BodyEntries

set_option maxRecDepth 16384

noncomputable section

namespace Cert.KernelIdeal.OutRegion

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Rows times weightsᵀ plus bias, as one function of the three arrays, entry by entry. -/
def affine (A : S8192x1024.Idx → EReal) (Wt : S1024x1024.Idx → EReal) (bias : S1024.Idx → EReal) : S8192x1024.Idx → EReal :=
  fun i => (∑ k : Fin 1024, A (ix2 (⟨(i 0).val, (i 0).isLt⟩ : Fin 8192) k) * Wt (ix2 (⟨(i 1).val, (i 1).isLt⟩ : Fin 1024) k))
    + bias (ix1 (⟨(i 1).val, (i 1).isLt⟩ : Fin 1024))

theorem zero2 : (![0, 0] : Fin 2 → Nat) = fun _ => 0 := funext fun a => by fin_cases a <;> rfl
theorem zero1 : (![0] : Fin 1 → Nat) = fun _ => 0 := funext fun a => by fin_cases a <;> rfl

/-- The block indices at each of the sixteen points: the row tile moves with the point, everything else stays. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- One stored block against the array: if the staged rows are the array's rows under the stored block, and the
    weights and bias are staged whole, the body's entry at `j` is the array function at the index under `j`. -/
theorem block_entry (x0 : FVec Ideal S512x1024 .bf16) (x1 : FVec Ideal S1024x1024 .bf16) (x2 : FVec Ideal S1024 .f32)
    (A : S8192x1024.Idx → EReal) (Wt : S1024x1024.Idx → EReal) (bias : S1024.Idx → EReal)
    (j : S512x1024.Idx) (i : S8192x1024.Idx)
    (h0 : ∀ k : Fin 1024, x0 (ix2 (⟨(j 0).val, (j 0).isLt⟩ : Fin 512) k) = A (ix2 (⟨(i 0).val, (i 0).isLt⟩ : Fin 8192) k))
    (h1 : x1 = Wt) (h2 : x2 = bias) (hcol : (j 1).val = (i 1).val) :
    k2_pay1 (F := Ideal) x0 x1 x2 j = affine A Wt bias i := by
  subst h1 h2
  obtain ⟨p, q, rfl⟩ : ∃ (p : Fin 512) (q : Fin 1024), j = ix2 p q := ⟨j 0, j 1, eq_ix2 j⟩
  rw [out_entry]
  unfold affine
  have hq : (⟨(i 1).val, (i 1).isLt⟩ : Fin 1024) = q := Fin.ext hcol.symm
  rw [hq]
  exact congrArg (· + x2 (ix1 q)) (Finset.sum_congr rfl fun k _ => congrArg (· * x1 (ix2 q k)) (h0 k))

/-- What point `t` writes back is block `t` of the array function of the region's three input arrays. -/
theorem flushed_eq (c : Dev nD) (t : Fin cfg2.N) :
    (dat2 V c).flushed 3 t = ((cfg2.win 3).blk t).view.read (Elt Ideal) (affine (V c main_v20) (V c main_v21) (V c main_arg4)) := by
  show (cfg2.win 3).cut (grid2.coords t) ((dat2 V c).after 3 t) = _
  rw [after2_3]
  unfold out2_3
  rw [View.canon_unit_zero zero2]
  simp only [View.ld_unit_zero (S := S512x1024) zero2, View.ld_unit_zero (S := S1024x1024) zero2, View.ld_unit_zero (S := S1024) zero1]
  obtain ⟨e00, e01, e10, e11, e20, e30, e31⟩ := block_indices t
  funext j
  show k2_pay1 (F := Ideal) (iblk2 V c 0 t) (iblk2 V c 1 t) (iblk2 V c 2 t) j
    = affine (V c main_v20) (V c main_v21) (V c main_arg4) (((cfg2.win 3).blk t).view.emb j)
  refine block_entry (iblk2 V c 0 t) (iblk2 V c 1 t) (iblk2 V c 2 t) (V c main_v20) (V c main_v21) (V c main_arg4) j
    (((cfg2.win 3).blk t).view.emb j) (fun k => ?_) ?_ ?_ ?_
  · show V c main_v20 (((cfg2.win 0).blk t).view.emb (ix2 (⟨(j 0).val, (j 0).isLt⟩ : Fin 512) k)) = V c main_v20 _
    refine congrArg (V c main_v20) (funext fun a => Fin.ext ?_)
    match a with
    | ⟨0, _⟩ =>
      show win2_0.index t (0 : Fin 2) * 512 + 1 * (j 0).val = win2_3.index t (0 : Fin 2) * 512 + 1 * (j 0).val
      rw [e00, e30]
    | ⟨1, _⟩ =>
      show win2_0.index t (1 : Fin 2) * 1024 + 1 * k.val = k.val
      rw [e01]; omega
  · funext y
    show V c main_v21 (((cfg2.win 1).blk t).view.emb y) = V c main_v21 y
    refine congrArg (V c main_v21) (funext fun a => Fin.ext ?_)
    match a with
    | ⟨0, _⟩ => show win2_1.index t (0 : Fin 2) * 1024 + 1 * (y 0).val = (y 0).val; rw [e10]; omega
    | ⟨1, _⟩ => show win2_1.index t (1 : Fin 2) * 1024 + 1 * (y 1).val = (y 1).val; rw [e11]; omega
  · funext y
    show V c main_arg4 (((cfg2.win 2).blk t).view.emb y) = V c main_arg4 y
    refine congrArg (V c main_arg4) (funext fun a => Fin.ext ?_)
    match a with
    | ⟨0, _⟩ => show win2_2.index t (0 : Fin 1) * 1024 + 1 * (y 0).val = (y 0).val; rw [e20]; omega
  · show (j 1).val = win2_3.index t (1 : Fin 2) * 1024 + 1 * (j 1).val
    rw [e31]; omega

/-- An index of the result array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v22).slice (win2_3.rect t)).set ↔ _
  rw [View.set_slice_whole, Rect.mem_set_unit]
  exact Iff.rfl

/-- Every index of the result array is in the block of the point its row falls in. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : grid2.N = 16 := N_2
  have hlt : (i 0).val / 512 < cfg2.N := by show (i 0).val / 512 < grid2.N; rw [hN]; omega
  refine ⟨⟨(i 0).val / 512, hlt⟩, flush2_3 _, ?_⟩
  rw [mem_blk]
  obtain ⟨-, -, -, -, -, e30, e31⟩ := block_indices ⟨(i 0).val / 512, hlt⟩
  intro a
  match a with
  | ⟨0, _⟩ =>
    show win2_3.index ⟨(i 0).val / 512, hlt⟩ (0 : Fin 2) * 512 ≤ (i 0).val ∧ (i 0).val < win2_3.index ⟨(i 0).val / 512, hlt⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, hlt⟩ (1 : Fin 2) * 1024 ≤ (i 1).val ∧ (i 1).val < win2_3.index ⟨(i 0).val / 512, hlt⟩ (1 : Fin 2) * 1024 + 1024
    rw [e31]; omega

/-- The result array after the region is the array function of the three input arrays as the region found them. -/
theorem final (c : Dev nD) :
    (dat2 V c).arrAt 3 cfg2.N = affine (V c main_v20) (V c main_v21) (V c main_arg4) :=
  (dat2 V c).arrAt_eq_of_cover 3 _ (fun t _ => flushed_eq V c t) cover

end Cert.KernelIdeal.OutRegion

end
-- ==== Proof.Glue.lean ====
/-
  The idealized kernel's two results as functions of its five arguments.
  Between the three regions the host only re-lays arrays: rows [8192, 1024] are (sequence, batch) pairs, re-cut as
  [2048, 4, 16, 64] and transposed to heads [4, 16, 2048, 64] = [64, 2048, 64], and back. Changes of float format are
  the identity over the extended reals. Composing the regions' arrays through these re-layings gives the weights
  result [4, 16, 2048, 2048] and the output result [2048, 4, 1024] as explicit terms of the arguments.
-/
import proofs.«118766_j79869211836976_2_alg».proof.Proof.Gen.KernelIdeal.Frame
import proofs.«118766_j79869211836976_2_alg».proof.Proof.ProjRegion
import proofs.«118766_j79869211836976_2_alg».proof.Proof.AttnRegion
import proofs.«118766_j79869211836976_2_alg».proof.Proof.OutRegion
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

/-- The input [2048, 4, 1024] as rows: (sequence, batch) pairs by embedding coordinate. -/
def rowsIn (X0 : S2048x4x1024.Idx → EReal) : S8192x1024.Idx → EReal :=
  shapeCast S8192x1024 X0 shapeCasts_S2048x4x1024_S8192x1024

/-- Rows [8192, 1024] re-laid by head: [64, 2048, 64], head-of-batch by sequence position by head coordinate. -/
def toHeads (P : S8192x1024.Idx → EReal) : S64x2048x64.Idx → EReal :=
  shapeCast S64x2048x64
    (transpose S4x16x2048x64 [1, 2, 0, 3]
      (shapeCast S2048x4x16x64 (shapeCast S2048x4x1024 P shapeCasts_S8192x1024_S2048x4x1024) shapeCasts_S2048x4x1024_S2048x4x16x64)
      transposes_S2048x4x16x64_S4x16x2048x64_1_2_0_3)
    shapeCasts_S4x16x2048x64_S64x2048x64

/-- Heads [64, 2048, 64] re-laid as rows [8192, 1024]. -/
def toRows (O : S64x2048x64.Idx → EReal) : S8192x1024.Idx → EReal :=
  shapeCast S8192x1024
    (transpose S2048x4x16x64 [2, 0, 1, 3] (shapeCast S4x16x2048x64 O shapeCasts_S64x2048x64_S4x16x2048x64)
      transposes_S4x16x2048x64_S2048x4x16x64_2_0_1_3)
    shapeCasts_S2048x4x16x64_S8192x1024

/-- The queries, keys and values by head, from the input, the input projection's weights and its bias. -/
def headsOf (off : Nat) (hoff : off + 1024 ≤ 3072) (X0 : S2048x4x1024.Idx → EReal) (X1 : S3072x1024.Idx → EReal) (X2 : S3072.Idx → EReal) :
    S64x2048x64.Idx → EReal :=
  toHeads (ProjRegion.proj off hoff (rowsIn X0) X1 X2)

/-- The weights result. -/
def weightsOf (X0 : S2048x4x1024.Idx → EReal) (X1 : S3072x1024.Idx → EReal) (X2 : S3072.Idx → EReal) : S4x16x2048x2048.Idx → EReal :=
  shapeCast S4x16x2048x2048 (AttnRegion.weights (headsOf 0 (by decide) X0 X1 X2) (headsOf 1024 (by decide) X0 X1 X2))
    shapeCasts_S64x2048x2048_S4x16x2048x2048

/-- The output result. -/
def outputOf (X0 : S2048x4x1024.Idx → EReal) (X1 : S3072x1024.Idx → EReal) (X2 : S3072.Idx → EReal)
    (X3 : S1024x1024.Idx → EReal) (X4 : S1024.Idx → EReal) : S2048x4x1024.Idx → EReal :=
  shapeCast S2048x4x1024
    (OutRegion.affine
      (toRows (AttnRegion.mixed (headsOf 0 (by decide) X0 X1 X2) (headsOf 1024 (by decide) X0 X1 X2) (headsOf 2048 (by decide) X0 X1 X2)))
      X3 X4)
    shapeCasts_S8192x1024_S2048x4x1024

variable (m : (ℓ : Loc nD τ sig) → Buf (Elt Ideal) ℓ) (ρ : Dev nD → PrngReg)

/-! ## The first region's entry -/

theorem entry0_rows (c : Dev nD) : (V1 m ρ c main_v1 : S8192x1024.Idx → EReal) = rowsIn (m ((c : Thread nD τ).loc main_arg0)) := by
  dsimp only [V1, W1, hostOps0]; after_results; rfl
theorem entry0_weights (c : Dev nD) : (V1 m ρ c main_v2 : S3072x1024.Idx → EReal) = (m ((c : Thread nD τ).loc main_arg1)) := by
  dsimp only [V1, W1, hostOps0]; after_results; rfl
theorem entry0_bias (c : Dev nD) : (V1 m ρ c main_arg2 : S3072.Idx → EReal) = (m ((c : Thread nD τ).loc main_arg2)) := by
  dsimp only [V1, W1, hostOps0]; after_results

/-! ## The first region's exit -/

theorem exit0_q (c : Dev nD) : (W2 m ρ c (Proc.devRef .tc main_v3_0) : S8192x1024.Idx → EReal)
    = ProjRegion.proj 0 (by decide) (rowsIn (m ((c : Thread nD τ).loc main_arg0))) (m ((c : Thread nD τ).loc main_arg1)) (m ((c : Thread nD τ).loc main_arg2)) := by
  refine ((W2_arr m ρ c 3).trans (ProjRegion.final3 (V1 m ρ) c)).trans ?_
  rw [entry0_rows, entry0_weights, entry0_bias]
theorem exit0_k (c : Dev nD) : (W2 m ρ c (Proc.devRef .tc main_v3_1) : S8192x1024.Idx → EReal)
    = ProjRegion.proj 1024 (by decide) (rowsIn (m ((c : Thread nD τ).loc main_arg0))) (m ((c : Thread nD τ).loc main_arg1)) (m ((c : Thread nD τ).loc main_arg2)) := by
  refine ((W2_arr m ρ c 4).trans (ProjRegion.final4 (V1 m ρ) c)).trans ?_
  rw [entry0_rows, entry0_weights, entry0_bias]
theorem exit0_v (c : Dev nD) : (W2 m ρ c (Proc.devRef .tc main_v3_2) : S8192x1024.Idx → EReal)
    = ProjRegion.proj 2048 (by decide) (rowsIn (m ((c : Thread nD τ).loc main_arg0))) (m ((c : Thread nD τ).loc main_arg1)) (m ((c : Thread nD τ).loc main_arg2)) := by
  refine ((W2_arr m ρ c 5).trans (ProjRegion.final5 (V1 m ρ) c)).trans ?_
  rw [entry0_rows, entry0_weights, entry0_bias]

/-! ## The second region's entry -/

theorem entry1_q (c : Dev nD) : (V3 m ρ c main_v9 : S64x2048x64.Idx → EReal) = toHeads (W2 m ρ c (Proc.devRef .tc main_v3_0)) := by
  dsimp only [V3, W3, hostOps1]; after_results; rfl
theorem entry1_k (c : Dev nD) : (V3 m ρ c main_v12 : S64x2048x64.Idx → EReal) = toHeads (W2 m ρ c (Proc.devRef .tc main_v3_1)) := by
  dsimp only [V3, W3, hostOps1]; after_results; rfl
theorem entry1_v (c : Dev nD) : (V3 m ρ c main_v15 : S64x2048x64.Idx → EReal) = toHeads (W2 m ρ c (Proc.devRef .tc main_v3_2)) := by
  dsimp only [V3, W3, hostOps1]; after_results; rfl

/-! ## The second region's exit -/

theorem exit1_weights (c : Dev nD) : (W4 m ρ c (Proc.devRef .tc main_v16_1) : S64x2048x2048.Idx → EReal)
    = AttnRegion.weights (headsOf 0 (by decide) (m ((c : Thread nD τ).loc main_arg0)) (m ((c : Thread nD τ).loc main_arg1)) (m ((c : Thread nD τ).loc main_arg2))) (headsOf 1024 (by decide) (m ((c : Thread nD τ).loc main_arg0)) (m ((c : Thread nD τ).loc main_arg1)) (m ((c : Thread nD τ).loc main_arg2))) := by
  refine ((W4_arr m ρ c 4).trans (AttnRegion.final4 (V3 m ρ) c)).trans ?_
  rw [entry1_q, entry1_k, exit0_q, exit0_k]; rfl
theorem exit1_mixed (c : Dev nD) : (W4 m ρ c (Proc.devRef .tc main_v16_0) : S64x2048x64.Idx → EReal)
    = AttnRegion.mixed (headsOf 0 (by decide) (m ((c : Thread nD τ).loc main_arg0)) (m ((c : Thread nD τ).loc main_arg1)) (m ((c : Thread nD τ).loc main_arg2))) (headsOf 1024 (by decide) (m ((c : Thread nD τ).loc main_arg0)) (m ((c : Thread nD τ).loc main_arg1)) (m ((c : Thread nD τ).loc main_arg2)))
        (headsOf 2048 (by decide) (m ((c : Thread nD τ).loc main_arg0)) (m ((c : Thread nD τ).loc main_arg1)) (m ((c : Thread nD τ).loc main_arg2))) := by
  refine ((W4_arr m ρ c 3).trans (AttnRegion.final3 (V3 m ρ) c)).trans ?_
  rw [entry1_q, entry1_k, entry1_v, exit0_q, exit0_k, exit0_v]; rfl

/-- The output projection's weights and bias reach the third region as launched: nothing before it writes them. -/
theorem carried_arg3 (c : Dev nD) : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = W2 m ρ c (Proc.devRef .tc main_arg3) := by dsimp only [W3, hostOps1]; after_results
    _ = W1 m ρ c (Proc.devRef .tc main_arg3) := W2_of_ne m ρ c main_arg3 (by decide)
    _ = W0 m ρ c (Proc.devRef .tc main_arg3) := by dsimp only [W1, hostOps0]; after_results
    _ = (m ((c : Thread nD τ).loc main_arg3)) := rfl
theorem carried_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := by dsimp only [W3, hostOps1]; after_results
    _ = W1 m ρ c (Proc.devRef .tc main_arg4) := W2_of_ne m ρ c main_arg4 (by decide)
    _ = W0 m ρ c (Proc.devRef .tc main_arg4) := by dsimp only [W1, hostOps0]; after_results
    _ = (m ((c : Thread nD τ).loc main_arg4)) := rfl

/-! ## The third region's entry and exit -/

theorem entry2_rows (c : Dev nD) : (V5 m ρ c main_v20 : S8192x1024.Idx → EReal) = toRows (W4 m ρ c (Proc.devRef .tc main_v16_0)) := by
  dsimp only [V5, W5, hostOps2]; after_results; rfl
theorem entry2_weights (c : Dev nD) : (V5 m ρ c main_v21 : S1024x1024.Idx → EReal) = (m ((c : Thread nD τ).loc main_arg3)) := by
  refine Eq.trans ?_ (carried_arg3 m ρ c)
  dsimp only [V5, W5, hostOps2]; after_results; rfl
theorem entry2_bias (c : Dev nD) : (V5 m ρ c main_arg4 : S1024.Idx → EReal) = (m ((c : Thread nD τ).loc main_arg4)) := by
  refine Eq.trans ?_ (carried_arg4 m ρ c)
  dsimp only [V5, W5, hostOps2]; after_results

theorem exit2 (c : Dev nD) : (W6 m ρ c (Proc.devRef .tc main_v22) : S8192x1024.Idx → EReal)
    = OutRegion.affine
        (toRows (AttnRegion.mixed (headsOf 0 (by decide) (m ((c : Thread nD τ).loc main_arg0)) (m ((c : Thread nD τ).loc main_arg1)) (m ((c : Thread nD τ).loc main_arg2))) (headsOf 1024 (by decide) (m ((c : Thread nD τ).loc main_arg0)) (m ((c : Thread nD τ).loc main_arg1)) (m ((c : Thread nD τ).loc main_arg2)))
          (headsOf 2048 (by decide) (m ((c : Thread nD τ).loc main_arg0)) (m ((c : Thread nD τ).loc main_arg1)) (m ((c : Thread nD τ).loc main_arg2)))))
        (m ((c : Thread nD τ).loc main_arg3)) (m ((c : Thread nD τ).loc main_arg4)) := by
  refine ((W6_arr m ρ c 3).trans (OutRegion.final (V5 m ρ) c)).trans ?_
  rw [entry2_rows, entry2_weights, entry2_bias, exit1_mixed]

/-! ## The two results -/

/-- The output result after the last stretch. -/
theorem output_eq (c : Dev nD) : (W7 m ρ c (Proc.devRef .tc main_v23) : S2048x4x1024.Idx → EReal)
    = outputOf (m ((c : Thread nD τ).loc main_arg0)) (m ((c : Thread nD τ).loc main_arg1)) (m ((c : Thread nD τ).loc main_arg2)) (m ((c : Thread nD τ).loc main_arg3)) (m ((c : Thread nD τ).loc main_arg4)) := by
  have h : (W7 m ρ c (Proc.devRef .tc main_v23) : S2048x4x1024.Idx → EReal)
      = shapeCast S2048x4x1024 (W6 m ρ c (Proc.devRef .tc main_v22)) shapeCasts_S8192x1024_S2048x4x1024 := by
    dsimp only [W7, hostOps3]; after_results; rfl
  rw [h, exit2]; rfl

/-- The weights result after the last stretch: nothing after the second region's re-laying writes it. -/
theorem weights_eq (c : Dev nD) : (W7 m ρ c (Proc.devRef .tc main_v17) : S4x16x2048x2048.Idx → EReal)
    = weightsOf (m ((c : Thread nD τ).loc main_arg0)) (m ((c : Thread nD τ).loc main_arg1)) (m ((c : Thread nD τ).loc main_arg2)) := by
  have h7 : W7 m ρ c (Proc.devRef .tc main_v17) = W6 m ρ c (Proc.devRef .tc main_v17) := by
    dsimp only [W7, hostOps3]; after_results
  have h6 : W6 m ρ c (Proc.devRef .tc main_v17) = W5 m ρ c (Proc.devRef .tc main_v17) := W6_of_ne m ρ c main_v17 (by decide)
  have h5 : (W5 m ρ c (Proc.devRef .tc main_v17) : S4x16x2048x2048.Idx → EReal)
      = shapeCast S4x16x2048x2048 (W4 m ρ c (Proc.devRef .tc main_v16_1)) shapeCasts_S64x2048x2048_S4x16x2048x2048 := by
    dsimp only [W5, hostOps2]; after_results; rfl
  rw [h7, h6, h5, exit1_weights]; rfl

end Cert.KernelIdeal.Glue

end
-- ==== Proof.Bridge.lean ====
/-
  The idealized kernel's two results are the reference's, index by index over the extended reals.
  Three meetings. (1) A row (s, b) of the kernel's projections is the reference's einsum plus bias, sliced: the same
  sum over the embedding coordinate. (2) By head (b, h), the kernel's weights are the softmax of q·kᵀ · 0.125 and the
  reference's the softmax of q·kᵀ · (1 / sqrt 64), the maximum taken once more against −∞ and the row sum started
  from 0: one function; and both mix the values by the same sum over the keys. (3) The output projection of the
  mixed heads, re-laid as rows, is again the same sum plus bias. No step moves a factor across a sum, so no
  finiteness of the inputs is used.
-/
import proofs.«118766_j79869211836976_2_alg».proof.Proof.Glue
import proofs.«118766_j79869211836976_2_alg».proof.Proof.Gen.ReferenceIdeal.Read
import Idealize.ShloMosaic.PureOps.Reduce

set_option maxRecDepth 16384

noncomputable section

namespace Cert.Bridge

open Cert.KernelIdeal Cert.KernelIdeal.Gen Cert.KernelIdeal.Glue Cert.Softmax
open Idealize.ShloMosaic Idealize.ShloMosaic.ValueIdx

/-! ## The projections -/

/-- The kernel's projection through weight rows `off …`, re-cut as [2048, 4, 1024], at (s, b, f). -/
theorem proj_rows_apply (off : Nat) (hoff : off + 1024 ≤ 3072) (X0 : S2048x4x1024.Idx → EReal) (X1 : S3072x1024.Idx → EReal) (X2 : S3072.Idx → EReal) (s : Fin 2048) (b : Fin 4) (f : Fin 1024) :
    shapeCast S2048x4x1024 (ProjRegion.proj off hoff (rowsIn X0) X1 X2) shapeCasts_S8192x1024_S2048x4x1024 (ix3 s b f)
      = (∑ k : Fin 1024, X0 (ix3 s b k) * X1 (ix2 (⟨off + f.val, by omega⟩ : Fin 3072) k))
        + X2 (ix1 (⟨off + f.val, by omega⟩ : Fin 3072)) := by
  have hr : s.val * 4 + b.val < 8192 := by omega
  refine (shapeCast_apply _ shapeCasts_S8192x1024_S2048x4x1024 (ix3 s b f) (ix2 (⟨s.val * 4 + b.val, hr⟩ : Fin 8192) f) (by
    rw [Shape.rowMajor_val_two, Shape.rowMajor_val_three]; rfl)).trans ?_
  unfold ProjRegion.proj
  refine congrArg (· + X2 (ix1 (⟨off + f.val, by omega⟩ : Fin 3072)))
    (Finset.sum_congr rfl fun k _ => congrArg (· * X1 (ix2 (⟨off + f.val, by omega⟩ : Fin 3072) k)) ?_)
  exact shapeCast_apply X0 shapeCasts_S2048x4x1024_S8192x1024 _ (ix3 s b k) (by
    rw [Shape.rowMajor_val_three, Shape.rowMajor_val_two]; rfl)

/-- The reference's einsum plus bias at (s, b, g), over all 3072 output coordinates. -/
theorem ref_proj_apply (X0 : S2048x4x1024.Idx → EReal) (X1 : S3072x1024.Idx → EReal) (X2 : S3072.Idx → EReal) (s : Fin 2048) (b : Fin 4) (g : Fin 3072) :
    Cert.ReferenceIdeal.Read.val_main_v3 (F := Ideal) X0 X1 X2 (ix3 s b g)
      = (∑ k : Fin 1024, X0 (ix3 s b k) * X1 (ix2 g k)) + X2 (ix1 g) := by
  have e1 : ∀ k : Fin 1024, Cert.ReferenceIdeal.Read.lidx_main_v0 (ix3 s b g) k = ix3 s b k := fun k =>
    funext fun a => Fin.ext (by match a with | ⟨0, _⟩ => rfl | ⟨1, _⟩ => rfl | ⟨2, _⟩ => rfl)
  have e2 : ∀ k : Fin 1024, Cert.ReferenceIdeal.Read.ridx_main_v0 (ix3 s b g) k = ix2 g k := fun k =>
    funext fun a => Fin.ext (by match a with | ⟨0, _⟩ => rfl | ⟨1, _⟩ => rfl)
  have e3 : Cert.ReferenceIdeal.Read.idx_main_v1 (Cert.ReferenceIdeal.Read.idx_main_v2 (ix3 s b g)) = ix1 g :=
    funext fun a => Fin.ext (by match a with | ⟨0, _⟩ => rfl)
  rw [Cert.ReferenceIdeal.Read.val_main_v3_apply, Cert.ReferenceIdeal.Read.val_main_v0_apply, Cert.ReferenceIdeal.Read.val_main_v2_apply, Cert.ReferenceIdeal.Read.val_main_v1_apply, e3]
  simp only [e1, e2]
  rfl

/-- The query rows are the reference's first slice. -/
theorem query_rows (X0 : S2048x4x1024.Idx → EReal) (X1 : S3072x1024.Idx → EReal) (X2 : S3072.Idx → EReal) :
    shapeCast S2048x4x1024 (ProjRegion.proj 0 (by decide) (rowsIn X0) X1 X2) shapeCasts_S8192x1024_S2048x4x1024
      = Cert.ReferenceIdeal.Read.val_main_v4 (F := Ideal) X0 X1 X2 := by
  funext i
  obtain ⟨s, b, f, rfl⟩ : ∃ (s : Fin 2048) (b : Fin 4) (f : Fin 1024), i = ix3 s b f := ⟨i 0, i 1, i 2, eq_ix3 i⟩
  have e : Cert.ReferenceIdeal.Read.idx_main_v4 (ix3 s b f) = ix3 s b (⟨0 + f.val, by omega⟩ : Fin 3072) :=
    funext fun a => Fin.ext (by match a with | ⟨0, _⟩ => rfl | ⟨1, _⟩ => rfl | ⟨2, _⟩ => (show f.val = 0 + f.val; omega))
  rw [proj_rows_apply, Cert.ReferenceIdeal.Read.val_main_v4_apply, e, ref_proj_apply]

/-- The same by head: the kernel's re-laying of its rows is the reference's re-laying of its slice. -/
theorem query_heads (X0 : S2048x4x1024.Idx → EReal) (X1 : S3072x1024.Idx → EReal) (X2 : S3072.Idx → EReal) :
    headsOf 0 (by decide) X0 X1 X2
      = shapeCast S64x2048x64 (Cert.ReferenceIdeal.Read.val_main_v8 (F := Ideal) X0 X1 X2) shapeCasts_S4x16x2048x64_S64x2048x64 := by
  unfold headsOf toHeads
  rw [query_rows]
  rfl

/-- The key rows are the reference's second slice. -/
theorem key_rows (X0 : S2048x4x1024.Idx → EReal) (X1 : S3072x1024.Idx → EReal) (X2 : S3072.Idx → EReal) :
    shapeCast S2048x4x1024 (ProjRegion.proj 1024 (by decide) (rowsIn X0) X1 X2) shapeCasts_S8192x1024_S2048x4x1024
      = Cert.ReferenceIdeal.Read.val_main_v5 (F := Ideal) X0 X1 X2 := by
  funext i
  obtain ⟨s, b, f, rfl⟩ : ∃ (s : Fin 2048) (b : Fin 4) (f : Fin 1024), i = ix3 s b f := ⟨i 0, i 1, i 2, eq_ix3 i⟩
  have e : Cert.ReferenceIdeal.Read.idx_main_v5 (ix3 s b f) = ix3 s b (⟨1024 + f.val, by omega⟩ : Fin 3072) :=
    funext fun a => Fin.ext (by match a with | ⟨0, _⟩ => rfl | ⟨1, _⟩ => rfl | ⟨2, _⟩ => rfl)
  rw [proj_rows_apply, Cert.ReferenceIdeal.Read.val_main_v5_apply, e, ref_proj_apply]

/-- The same by head: the kernel's re-laying of its rows is the reference's re-laying of its slice. -/
theorem key_heads (X0 : S2048x4x1024.Idx → EReal) (X1 : S3072x1024.Idx → EReal) (X2 : S3072.Idx → EReal) :
    headsOf 1024 (by decide) X0 X1 X2
      = shapeCast S64x2048x64 (Cert.ReferenceIdeal.Read.val_main_v10 (F := Ideal) X0 X1 X2) shapeCasts_S4x16x2048x64_S64x2048x64 := by
  unfold headsOf toHeads
  rw [key_rows]
  rfl

/-- The value rows are the reference's third slice. -/
theorem value_rows (X0 : S2048x4x1024.Idx → EReal) (X1 : S3072x1024.Idx → EReal) (X2 : S3072.Idx → EReal) :
    shapeCast S2048x4x1024 (ProjRegion.proj 2048 (by decide) (rowsIn X0) X1 X2) shapeCasts_S8192x1024_S2048x4x1024
      = Cert.ReferenceIdeal.Read.val_main_v6 (F := Ideal) X0 X1 X2 := by
  funext i
  obtain ⟨s, b, f, rfl⟩ : ∃ (s : Fin 2048) (b : Fin 4) (f : Fin 1024), i = ix3 s b f := ⟨i 0, i 1, i 2, eq_ix3 i⟩
  have e : Cert.ReferenceIdeal.Read.idx_main_v6 (ix3 s b f) = ix3 s b (⟨2048 + f.val, by omega⟩ : Fin 3072) :=
    funext fun a => Fin.ext (by match a with | ⟨0, _⟩ => rfl | ⟨1, _⟩ => rfl | ⟨2, _⟩ => rfl)
  rw [proj_rows_apply, Cert.ReferenceIdeal.Read.val_main_v6_apply, e, ref_proj_apply]

/-- The same by head: the kernel's re-laying of its rows is the reference's re-laying of its slice. -/
theorem value_heads (X0 : S2048x4x1024.Idx → EReal) (X1 : S3072x1024.Idx → EReal) (X2 : S3072.Idx → EReal) :
    headsOf 2048 (by decide) X0 X1 X2
      = shapeCast S64x2048x64 (Cert.ReferenceIdeal.Read.val_main_v12 (F := Ideal) X0 X1 X2) shapeCasts_S4x16x2048x64_S64x2048x64 := by
  unfold headsOf toHeads
  rw [value_rows]
  rfl

/-! ## The attention weights and the mixed values -/

/-- An array by (batch, head) read through its re-laying by head-of-batch: head-of-batch 16·b + h is (b, h). -/
theorem heads_apply (Y : S4x16x2048x64.Idx → EReal) (b : Fin 4) (h : Fin 16) (s : Fin 2048) (d : Fin 64) :
    shapeCast S64x2048x64 Y shapeCasts_S4x16x2048x64_S64x2048x64 (ix3 (⟨b.val * 16 + h.val, by omega⟩ : Fin 64) s d)
      = Y (ix4 b h s d) :=
  shapeCast_apply Y _ _ _ (by rw [Shape.rowMajor_val_four, Shape.rowMajor_val_three]; rfl)

/-- Row (b, h, s) with the key coordinate put back is the entry (b, h, s, k). -/
theorem lift_key (hred : (⟨4, ![4, 16, 2048, 2048]⟩ : Shape).Reduces [3] (⟨3, ![4, 16, 2048]⟩ : Shape)) (b : Fin 4) (h : Fin 16) (s : Fin 2048)
    (k : Fin ((⟨4, ![4, 16, 2048, 2048]⟩ : Shape).size 3)) :
    hred.lift (ix3 b h s) k = ix4 b h s (⟨k.val, k.isLt⟩ : Fin 2048) := by
  funext c; apply Fin.ext
  fin_cases c <;> rfl

section Attention
variable (X0 : S2048x4x1024.Idx → EReal) (X1 : S3072x1024.Idx → EReal) (X2 : S3072.Idx → EReal)

/-- The reference's scaled score: its scale 1 / sqrt 64 is the literal 0.125. -/
theorem ref_score (b : Fin 4) (h : Fin 16) (s t : Fin 2048) :
    Cert.ReferenceIdeal.Read.val_main_v17 (F := Ideal) X0 X1 X2 (ix4 b h s t)
      = (∑ k : Fin 64, Cert.ReferenceIdeal.Read.val_main_v8 (F := Ideal) X0 X1 X2 (ix4 b h s k) * Cert.ReferenceIdeal.Read.val_main_v10 (F := Ideal) X0 X1 X2 (ix4 b h t k))
        * Ideal.ofBits .f32 0x3E000000#32 := by
  have e1 : ∀ k : Fin 64, Cert.ReferenceIdeal.Read.lidx_main_v15 (ix4 b h s t) k = ix4 b h s k := fun k =>
    funext fun a => Fin.ext (by match a with | ⟨0, _⟩ => rfl | ⟨1, _⟩ => rfl | ⟨2, _⟩ => rfl | ⟨3, _⟩ => rfl)
  have e2 : ∀ k : Fin 64, Cert.ReferenceIdeal.Read.ridx_main_v15 (ix4 b h s t) k = ix4 b h t k := fun k =>
    funext fun a => Fin.ext (by match a with | ⟨0, _⟩ => rfl | ⟨1, _⟩ => rfl | ⟨2, _⟩ => rfl | ⟨3, _⟩ => rfl)
  rw [Cert.ReferenceIdeal.Read.val_main_v17_apply, Cert.ReferenceIdeal.Read.val_main_v15_apply, Cert.ReferenceIdeal.Read.val_main_v16_apply, Cert.ReferenceIdeal.Read.val_main_v14_apply, Cert.ReferenceIdeal.Read.val_main_v13_apply,
    Cert.ReferenceIdeal.Read.val_main_cst_apply, Cert.ReferenceIdeal.Read.val_main_cst_0_apply]
  simp only [e1, e2]
  exact congrArg (fun c => (∑ k : Fin 64, Cert.ReferenceIdeal.Read.val_main_v8 (F := Ideal) X0 X1 X2 (ix4 b h s k) * Cert.ReferenceIdeal.Read.val_main_v10 (F := Ideal) X0 X1 X2 (ix4 b h t k)) * c) scale_eq

/-- The reference's row maximum, taken once more against −∞, is the row's maximum. -/
theorem ref_rowmax (b : Fin 4) (h : Fin 16) (s t : Fin 2048) :
    Cert.ReferenceIdeal.Read.val_main_v22 (F := Ideal) X0 X1 X2 (ix4 b h s t)
      = rowMax fun t' : Fin 2048 => Cert.ReferenceIdeal.Read.val_main_v17 (F := Ideal) X0 X1 X2 (ix4 b h s t') := by
  have e : Cert.ReferenceIdeal.Read.idx_main_v21 (Cert.ReferenceIdeal.Read.idx_main_v22 (ix4 b h s t)) = ix3 b h s :=
    funext fun a => Fin.ext (by match a with | ⟨0, _⟩ => rfl | ⟨1, _⟩ => rfl | ⟨2, _⟩ => rfl)
  rw [Cert.ReferenceIdeal.Read.val_main_v22_apply, Cert.ReferenceIdeal.Read.val_main_v21_apply, e, Cert.ReferenceIdeal.Read.val_main_v20_apply, Cert.ReferenceIdeal.Read.val_main_v19_apply, Cert.ReferenceIdeal.Read.val_main_cst_2_apply]
  show max negInf (Cert.ReferenceIdeal.Read.val_main_v18 (F := Ideal) X0 X1 X2 (ix3 b h s)) = _
  rw [max_negInf]
  unfold Cert.ReferenceIdeal.Read.val_main_v18
  have hred : (⟨4, ![4, 16, 2048, 2048]⟩ : Shape).Reduces [3] (⟨3, ![4, 16, 2048]⟩ : Shape) := by decide
  refine (Host.reduce_eq_fold_single FloatOps.maximumf _ _ _ hred _ (ix3 b h s)).trans ?_
  unfold rowMax
  exact congrArg (fun f => (Finset.univ : Finset (Fin 2048)).fold max negInf f)
    (funext fun k => congrArg (Cert.ReferenceIdeal.Read.val_main_v17 (F := Ideal) X0 X1 X2) (lift_key hred b h s k))

/-- The reference's exponentials. -/
theorem ref_exp (b : Fin 4) (h : Fin 16) (s t : Fin 2048) :
    Cert.ReferenceIdeal.Read.val_main_v24 (F := Ideal) X0 X1 X2 (ix4 b h s t)
      = Ideal.exp (Cert.ReferenceIdeal.Read.val_main_v17 (F := Ideal) X0 X1 X2 (ix4 b h s t)
          - rowMax fun t' : Fin 2048 => Cert.ReferenceIdeal.Read.val_main_v17 (F := Ideal) X0 X1 X2 (ix4 b h s t')) := by
  show Ideal.exp (Cert.ReferenceIdeal.Read.val_main_v17 (F := Ideal) X0 X1 X2 (ix4 b h s t) - Cert.ReferenceIdeal.Read.val_main_v22 (F := Ideal) X0 X1 X2 (ix4 b h s t)) = _
  rw [ref_rowmax]

/-- The reference's row sum, started from 0, is the sum of the row's exponentials. -/
theorem ref_rowsum (b : Fin 4) (h : Fin 16) (s t : Fin 2048) :
    Cert.ReferenceIdeal.Read.val_main_v27 (F := Ideal) X0 X1 X2 (ix4 b h s t)
      = ∑ t' : Fin 2048, Cert.ReferenceIdeal.Read.val_main_v24 (F := Ideal) X0 X1 X2 (ix4 b h s t') := by
  have e : Cert.ReferenceIdeal.Read.idx_main_v26 (Cert.ReferenceIdeal.Read.idx_main_v27 (ix4 b h s t)) = ix3 b h s :=
    funext fun a => Fin.ext (by match a with | ⟨0, _⟩ => rfl | ⟨1, _⟩ => rfl | ⟨2, _⟩ => rfl)
  have e25 : ∀ k : Fin 2048, Cert.ReferenceIdeal.Read.idx_main_v25 (ix3 b h s) k = ix4 b h s k := fun k =>
    funext fun a => Fin.ext (by match a with | ⟨0, _⟩ => rfl | ⟨1, _⟩ => rfl | ⟨2, _⟩ => rfl | ⟨3, _⟩ => rfl)
  rw [Cert.ReferenceIdeal.Read.val_main_v27_apply, Cert.ReferenceIdeal.Read.val_main_v26_apply, e, Cert.ReferenceIdeal.Read.val_main_v25_apply, Cert.ReferenceIdeal.Read.val_main_cst_3_apply]
  simp only [e25]
  show Ideal.ofBits .f32 0x00000000#32 + _ = _
  rw [Ideal.ofBits_zero_f32, zero_add]

/-- The reference's weights are the softmax of its scaled scores. -/
theorem ref_weights (b : Fin 4) (h : Fin 16) (s t : Fin 2048) :
    Cert.ReferenceIdeal.Read.val_main_v28 (F := Ideal) X0 X1 X2 (ix4 b h s t)
      = softmaxRow (fun t' : Fin 2048 => Cert.ReferenceIdeal.Read.val_main_v17 (F := Ideal) X0 X1 X2 (ix4 b h s t')) t := by
  show Ideal.div (Cert.ReferenceIdeal.Read.val_main_v24 (F := Ideal) X0 X1 X2 (ix4 b h s t)) (Cert.ReferenceIdeal.Read.val_main_v27 (F := Ideal) X0 X1 X2 (ix4 b h s t)) = _
  rw [ref_rowsum, ref_exp]
  unfold softmaxRow
  exact congrArg (Ideal.div _) (Finset.sum_congr rfl fun t' _ => ref_exp X0 X1 X2 b h s t')

/-- The kernel's scaled score by head-of-batch 16·b + h is the reference's by (b, h). -/
theorem score_heads (b : Fin 4) (h : Fin 16) (s t : Fin 2048) :
    AttnRegion.scoreAt
        (shapeCast S64x2048x64 (Cert.ReferenceIdeal.Read.val_main_v8 (F := Ideal) X0 X1 X2) shapeCasts_S4x16x2048x64_S64x2048x64)
        (shapeCast S64x2048x64 (Cert.ReferenceIdeal.Read.val_main_v10 (F := Ideal) X0 X1 X2) shapeCasts_S4x16x2048x64_S64x2048x64)
        (⟨b.val * 16 + h.val, by omega⟩ : Fin 64) s t
      = Cert.ReferenceIdeal.Read.val_main_v17 (F := Ideal) X0 X1 X2 (ix4 b h s t) := by
  rw [ref_score]
  unfold AttnRegion.scoreAt
  exact congrArg (· * Ideal.ofBits .f32 0x3E000000#32)
    (Finset.sum_congr rfl fun k _ => congrArg₂ (· * ·) (heads_apply _ b h s k) (heads_apply _ b h t k))

/-- The weights result is the reference's. -/
theorem weights_result : weightsOf X0 X1 X2 = Cert.ReferenceIdeal.Read.val_main_v28 (F := Ideal) X0 X1 X2 := by
  unfold weightsOf
  rw [query_heads, key_heads]
  funext i
  obtain ⟨b, h, s, t, rfl⟩ : ∃ (b : Fin 4) (h : Fin 16) (s t : Fin 2048), i = ix4 b h s t := ⟨i 0, i 1, i 2, i 3, eq_ix4 i⟩
  refine (shapeCast_apply _ shapeCasts_S64x2048x2048_S4x16x2048x2048 (ix4 b h s t)
    (ix3 (⟨b.val * 16 + h.val, by omega⟩ : Fin 64) s t) (by rw [Shape.rowMajor_val_three, Shape.rowMajor_val_four]; rfl)).trans ?_
  rw [ref_weights]
  unfold AttnRegion.weights
  exact congrArg (fun S => softmaxRow S t) (funext fun t' => score_heads X0 X1 X2 b h s t')

/-- The mixed values by (batch, head) are the reference's weights times values. -/
theorem mixed_heads :
    shapeCast S4x16x2048x64
        (AttnRegion.mixed (headsOf 0 (by decide) X0 X1 X2) (headsOf 1024 (by decide) X0 X1 X2) (headsOf 2048 (by decide) X0 X1 X2))
        shapeCasts_S64x2048x64_S4x16x2048x64
      = Cert.ReferenceIdeal.Read.val_main_v29 (F := Ideal) X0 X1 X2 := by
  rw [query_heads, key_heads, value_heads]
  funext i
  obtain ⟨b, h, s, d, rfl⟩ : ∃ (b : Fin 4) (h : Fin 16) (s : Fin 2048) (d : Fin 64), i = ix4 b h s d := ⟨i 0, i 1, i 2, i 3, eq_ix4 i⟩
  refine (shapeCast_apply _ shapeCasts_S64x2048x64_S4x16x2048x64 (ix4 b h s d)
    (ix3 (⟨b.val * 16 + h.val, by omega⟩ : Fin 64) s d) (by rw [Shape.rowMajor_val_three, Shape.rowMajor_val_four]; rfl)).trans ?_
  have e1 : ∀ k : Fin 2048, Cert.ReferenceIdeal.Read.lidx_main_v29 (ix4 b h s d) k = ix4 b h s k := fun k =>
    funext fun a => Fin.ext (by match a with | ⟨0, _⟩ => rfl | ⟨1, _⟩ => rfl | ⟨2, _⟩ => rfl | ⟨3, _⟩ => rfl)
  have e2 : ∀ k : Fin 2048, Cert.ReferenceIdeal.Read.ridx_main_v29 (ix4 b h s d) k = ix4 b h k d := fun k =>
    funext fun a => Fin.ext (by match a with | ⟨0, _⟩ => rfl | ⟨1, _⟩ => rfl | ⟨2, _⟩ => rfl | ⟨3, _⟩ => rfl)
  rw [Cert.ReferenceIdeal.Read.val_main_v29_apply]
  simp only [e1, e2]
  unfold AttnRegion.mixed
  refine Finset.sum_congr rfl fun t _ => congrArg₂ (· * ·) ?_ (heads_apply _ b h t d)
  rw [ref_weights]
  exact congrArg (fun S => softmaxRow S t) (funext fun t' => score_heads X0 X1 X2 b h s t')

/-- Re-laid as rows, the mixed values are the reference's transposed product, re-cut. -/
theorem mixed_rows :
    toRows (AttnRegion.mixed (headsOf 0 (by decide) X0 X1 X2) (headsOf 1024 (by decide) X0 X1 X2) (headsOf 2048 (by decide) X0 X1 X2))
      = shapeCast S8192x1024 (Cert.ReferenceIdeal.Read.val_main_v30 (F := Ideal) X0 X1 X2) shapeCasts_S2048x4x16x64_S8192x1024 := by
  unfold toRows
  rw [mixed_heads]
  rfl

end Attention

/-! ## The output projection -/

/-- The output result is the reference's. -/
theorem output_result (X0 : S2048x4x1024.Idx → EReal) (X1 : S3072x1024.Idx → EReal) (X2 : S3072.Idx → EReal) (X3 : S1024x1024.Idx → EReal) (X4 : S1024.Idx → EReal) :
    outputOf X0 X1 X2 X3 X4 = Cert.ReferenceIdeal.Read.val_main_v35 (F := Ideal) X0 X1 X2 X3 X4 := by
  unfold outputOf
  rw [mixed_rows]
  funext i
  obtain ⟨s, b, f, rfl⟩ : ∃ (s : Fin 2048) (b : Fin 4) (f : Fin 1024), i = ix3 s b f := ⟨i 0, i 1, i 2, eq_ix3 i⟩
  have hr : s.val * 4 + b.val < 8192 := by omega
  refine (shapeCast_apply _ shapeCasts_S8192x1024_S2048x4x1024 (ix3 s b f) (ix2 (⟨s.val * 4 + b.val, hr⟩ : Fin 8192) f) (by
    rw [Shape.rowMajor_val_two, Shape.rowMajor_val_three]; rfl)).trans ?_
  have e1 : ∀ k : Fin 1024, Cert.ReferenceIdeal.Read.lidx_main_v32 (ix3 s b f) k = ix3 s b k := fun k =>
    funext fun a => Fin.ext (by match a with | ⟨0, _⟩ => rfl | ⟨1, _⟩ => rfl | ⟨2, _⟩ => rfl)
  have e2 : ∀ k : Fin 1024, Cert.ReferenceIdeal.Read.ridx_main_v32 (ix3 s b f) k = ix2 f k := fun k =>
    funext fun a => Fin.ext (by match a with | ⟨0, _⟩ => rfl | ⟨1, _⟩ => rfl)
  have e3 : Cert.ReferenceIdeal.Read.idx_main_v33 (Cert.ReferenceIdeal.Read.idx_main_v34 (ix3 s b f)) = ix1 f :=
    funext fun a => Fin.ext (by match a with | ⟨0, _⟩ => rfl)
  rw [Cert.ReferenceIdeal.Read.val_main_v35_apply, Cert.ReferenceIdeal.Read.val_main_v32_apply, Cert.ReferenceIdeal.Read.val_main_v34_apply, Cert.ReferenceIdeal.Read.val_main_v33_apply, e3]
  simp only [e1, e2]
  unfold OutRegion.affine
  refine congrArg (· + X4 (ix1 f)) (Finset.sum_congr rfl fun k _ => congrArg (· * X3 (ix2 f k)) ?_)
  rw [Cert.ReferenceIdeal.Read.val_main_v31_apply]
  refine shapeCast_apply _ shapeCasts_S2048x4x16x64_S8192x1024 _ (Cert.ReferenceIdeal.Read.idx_main_v31 (ix3 s b k)) ?_
  have hs : s.val < 2048 := s.isLt
  have hb : b.val < 4 := b.isLt
  have hk : k.val < 1024 := k.isLt
  rw [Shape.rowMajor_val_four, Shape.rowMajor_val_two]
  show ((((s.val * 4 + b.val) * 1024 + k.val) / 4096 * 4 + ((s.val * 4 + b.val) * 1024 + k.val) / 1024 % 4) * 16 + ((s.val * 4 + b.val) * 1024 + k.val) / 64 % 16) * 64 + ((s.val * 4 + b.val) * 1024 + k.val) % 64 = (s.val * 4 + b.val) * 1024 + k.val
  omega

end Cert.Bridge

end
-- ==== Proof.lean ====
/-
  Multi-head attention over a sequence-first input x [2048, 4, 1024] (16 heads of 64 coordinates): the input
  projection x·W_inᵀ + b_in cut into queries, keys and values; per (batch, head) the weights
  softmax(q·kᵀ / 8) over the 2048 keys and the mixed values weights·v; the output projection of the re-assembled
  heads, ·W_outᵀ + b_out. Two results: the projected output [2048, 4, 1024] and the weights [4, 16, 2048, 2048].

  The kernel computes this in three tiled regions (projections by 1024-row tiles; attention by head and
  1024-query tile with all keys and values of the head resident; output projection by 512-row tiles) with host
  re-layings between them; the reference in one line of whole-array operations. Over the extended reals, where a
  change of float format is the identity and every sum is exact, each region's result array is one function of the
  region's input arrays (the blocks written back cover the array), the re-layings compose, and the two programs'
  results are the same function of the five arguments index by index: the same sums over the embedding, head and
  key coordinates, the kernel's literal 0.125 against the reference's 1 / sqrt 64, and a maximum and a sum that
  the reference starts once more from −∞ and from 0. Only commutativity and associativity of the sums are
  involved, so the precondition (finite inputs) is not opened.

  The frames of the two kernel programs are the generated ones; the reference's is its generated run with the
  results dropped. The idealization rewrote nothing, so there is nothing to preserve.
-/
import proofs.«118766_j79869211836976_2_alg».proof.Defs
import proofs.«118766_j79869211836976_2_alg».proof.Proof.Gen.Kernel
import proofs.«118766_j79869211836976_2_alg».proof.Proof.Gen.Kernel.Frame
import proofs.«118766_j79869211836976_2_alg».proof.Proof.Gen.KernelIdeal
import proofs.«118766_j79869211836976_2_alg».proof.Proof.Gen.KernelIdeal.Frame
import proofs.«118766_j79869211836976_2_alg».proof.Proof.Gen.ReferenceIdeal
import proofs.«118766_j79869211836976_2_alg».proof.Proof.Gen.Pre_finite_inputs
import proofs.«118766_j79869211836976_2_alg».proof.Proof.Gen.ReferenceIdeal.Run
import proofs.«118766_j79869211836976_2_alg».proof.Proof.Gen.ReferenceIdeal.Read
import proofs.«118766_j79869211836976_2_alg».proof.Proof.KRun
import proofs.«118766_j79869211836976_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read over the extended reals: no rewrite to justify. -/
theorem preserves : Cert.preserves_Kernel_KernelIdeal := trivial

/-- From memories agreeing on the five arguments both programs run, and both end with the output at
    `outputOf` and the weights at `weightsOf` of the arguments: the kernel's run read through its regions, the
    reference's run read operation by operation, and the two terms one function. -/
theorem algebraic : Cert.algebraic_KernelIdeal_ReferenceIdeal := by
  intro m ρ m' ρ' _ hagree
  refine ⟨fun c => Cert.KernelIdeal.Glue.outputOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Glue.weightsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Glue.output_eq m ρ c), (h c).2.1.trans (Cert.KernelIdeal.Glue.weights_eq m ρ c), (h c).2.2⟩)
      (Cert.KernelIdeal.KRun.run_results m ρ)
  · refine (θ_run Cert.ReferenceIdeal.defs _ _).mono (fun r h c => ⟨?_, ?_, (h c).2.2⟩)
      (Cert.ReferenceIdeal.Value.run (F := Ideal) m' ρ')
    · refine (h c).1.trans ?_
      rw [Cert.ReferenceIdeal.Read.val_main_v35_eq, (hagree c).1, (hagree c).2.1, (hagree c).2.2.1, (hagree c).2.2.2.1, (hagree c).2.2.2.2]
      exact (Cert.Bridge.output_result _ _ _ _ _).symm
    · refine (h c).2.1.trans ?_
      rw [Cert.ReferenceIdeal.Read.val_main_v28_eq, (hagree c).1, (hagree c).2.1, (hagree c).2.2.1]
      exact (Cert.Bridge.weights_result _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
